-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3x64 : Shape := ⟨3, ![16384, 3, 64]⟩
abbrev S16384 : Shape := ⟨1, ![16384]⟩
abbrev S100x1024 : Shape := ⟨2, ![100, 1024]⟩
abbrev S3072x1088 : Shape := ⟨2, ![3072, 1088]⟩
abbrev S3072x1024 : Shape := ⟨2, ![3072, 1024]⟩
abbrev S3072 : Shape := ⟨1, ![3072]⟩
abbrev S_ : Shape := ⟨0, ![]⟩

class Facts : Prop where
  bcast_S_S16384x3x64 : S_.BroadcastsInDim S16384x3x64 (![] : Fin 0 → Fin S16384x3x64.rank)
  reducesTo_S16384x3x64_S_d0_1_2 : S16384x3x64.ReducesTo [0, 1, 2] S_
  h_S_ : 0 < S_.numel
  bcast_S_S100x1024 : S_.BroadcastsInDim S100x1024 (![] : Fin 0 → Fin S100x1024.rank)
  reducesTo_S100x1024_S_d0_1 : S100x1024.ReducesTo [0, 1] S_
  bcast_S_S3072x1088 : S_.BroadcastsInDim S3072x1088 (![] : Fin 0 → Fin S3072x1088.rank)
  reducesTo_S3072x1088_S_d0_1 : S3072x1088.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg5 : FVec F S3072 .f32) (main_arg6 : FVec F S3072 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg5
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072 .f32 := Host.absf main_arg6
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  main_v28

def fn {F : FTy → Type} [FloatOps F] (main_arg0 : FVec F S16384x3x64 .f32) (main_arg1 : IVec S16384 32) (main_arg2 : FVec F S100x1024 .f32) (main_arg3 : FVec F S3072x1088 .f32) (main_arg4 : FVec F S3072x1024 .f32) (main_arg5 : FVec F S3072 .f32) (main_arg6 : FVec F S3072 .f32) : IVec S_ 1 :=
  let main_v0 : FVec F S16384x3x64 .f32 := Host.absf main_arg0
  let main_cst : FVec F S_ .f32 := constant S_ .f32 0x7F800000#32
  let main_v1 : FVec F S16384x3x64 .f32 := broadcastInDim S16384x3x64 ![] bcast_S_S16384x3x64 main_cst
  let main_v2 : IVec S16384x3x64 1 := cmpf .olt main_v0 main_v1
  let main_c : IVec S_ 1 := constantI S_ 1 1#1
  let main_v3 : IVec S_ 1 := (fun x v => Host.reduce IntOp.andi x v reducesTo_S16384x3x64_S_d0_1_2 h_S_) main_v2 main_c
  let main_v4 : FVec F S100x1024 .f32 := Host.absf main_arg2
  let main_cst_0 : FVec F S_ .f32 := constant S_ .f32 0x7F800000#32
  let main_v5 : FVec F S100x1024 .f32 := broadcastInDim S100x1024 ![] bcast_S_S100x1024 main_cst_0
  let main_v6 : IVec S100x1024 1 := cmpf .olt main_v4 main_v5
  let main_c_1 : IVec S_ 1 := constantI S_ 1 1#1
  let main_v7 : IVec S_ 1 := (fun x v => Host.reduce IntOp.andi x v reducesTo_S100x1024_S_d0_1 h_S_) main_v6 main_c_1
  let main_v8 : IVec S_ 1 := andi main_v3 main_v7
  let main_v9 : FVec F S3072x1088 .f32 := Host.absf main_arg3
  let main_cst_2 : FVec F S_ .f32 := constant S_ .f32 0x7F800000#32
  let main_v10 : FVec F S3072x1088 .f32 := broadcastInDim S3072x1088 ![] bcast_S_S3072x1088 main_cst_2
  let main_v11 : IVec S3072x1088 1 := cmpf .olt main_v9 main_v10
  let main_c_3 : IVec S_ 1 := constantI S_ 1 1#1
  let main_v12 : IVec S_ 1 := (fun x v => Host.reduce IntOp.andi x v reducesTo_S3072x1088_S_d0_1 h_S_) main_v11 main_c_3
  let main_v13 : IVec S_ 1 := andi main_v8 main_v12
  let main_v14 : FVec F S3072x1024 .f32 := Host.absf main_arg4
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg5 main_arg6 main_v13 main_v16
-- ==== Kernel.lean ====
abbrev S16384x3x64 : Shape := ⟨3, ![16384, 3, 64]⟩
abbrev S16384 : Shape := ⟨1, ![16384]⟩
abbrev S100x1024 : Shape := ⟨2, ![100, 1024]⟩
abbrev S3072x1088 : Shape := ⟨2, ![3072, 1088]⟩
abbrev S3072x1024 : Shape := ⟨2, ![3072, 1024]⟩
abbrev S3072 : Shape := ⟨1, ![3072]⟩
abbrev S1088x3072 : Shape := ⟨2, ![1088, 3072]⟩
abbrev S1024x3072 : Shape := ⟨2, ![1024, 3072]⟩
abbrev S1x3072 : Shape := ⟨2, ![1, 3072]⟩
abbrev S100x3072 : Shape := ⟨2, ![100, 3072]⟩
abbrev S_ : Shape := ⟨0, ![]⟩
abbrev S16384x1 : Shape := ⟨2, ![16384, 1]⟩
abbrev S16384x3072 : Shape := ⟨2, ![16384, 3072]⟩
abbrev S16384x1024 : Shape := ⟨2, ![16384, 1024]⟩
abbrev S256x3x64 : Shape := ⟨3, ![256, 3, 64]⟩
abbrev S256x3072 : Shape := ⟨2, ![256, 3072]⟩
abbrev S256x1024 : Shape := ⟨2, ![256, 1024]⟩
abbrev S64x3072 : Shape := ⟨2, ![64, 3072]⟩
abbrev S256x1x64 : Shape := ⟨3, ![256, 1, 64]⟩
abbrev S256x64 : Shape := ⟨2, ![256, 64]⟩
abbrev S1x1024 : Shape := ⟨2, ![1, 1024]⟩
abbrev S1x16384x1024 : Shape := ⟨3, ![1, 16384, 1024]⟩

abbrev nBuf : Space → Nat
  | .hbm => 30
  | .vmem => 10
  | .smem => 0
  | _ => 0

abbrev bufTy : (tb : Table) → Fin (tcTables nBuf tb) → BufTy
  | .hbm, ⟨0, _⟩ => ⟨S16384x3x64, .f32⟩
  | .hbm, ⟨1, _⟩ => ⟨S16384, .i32⟩
  | .hbm, ⟨2, _⟩ => ⟨S100x1024, .f32⟩
  | .hbm, ⟨3, _⟩ => ⟨S3072x1088, .f32⟩
  | .hbm, ⟨4, _⟩ => ⟨S3072x1024, .f32⟩
  | .hbm, ⟨5, _⟩ => ⟨S3072, .f32⟩
  | .hbm, ⟨6, _⟩ => ⟨S3072, .f32⟩
  | .hbm, ⟨7, _⟩ => ⟨S1088x3072, .f32⟩
  | .hbm, ⟨8, _⟩ => ⟨S1088x3072, .bf16⟩
  | .hbm, ⟨9, _⟩ => ⟨S1024x3072, .f32⟩
  | .hbm, ⟨10, _⟩ => ⟨S1024x3072, .bf16⟩
  | .hbm, ⟨11, _⟩ => ⟨S1x3072, .f32⟩
  | .hbm, ⟨12, _⟩ => ⟨S1x3072, .f32⟩
  | .hbm, ⟨13, _⟩ => ⟨S1024x3072, .bf16⟩
  | .hbm, ⟨14, _⟩ => ⟨S100x1024, .bf16⟩
  | .hbm, ⟨15, _⟩ => ⟨S100x3072, .f32⟩
  | .hbm, ⟨16, _⟩ => ⟨S100x3072, .f32⟩
  | .hbm, ⟨17, _⟩ => ⟨S100x3072, .f32⟩
  | .hbm, ⟨18, _⟩ => ⟨S100x3072, .bf16⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x3072, .bf16⟩
  | .hbm, ⟨28, _⟩ => ⟨S16384x1024, .f32⟩
  | .hbm, ⟨29, _⟩ => ⟨S1x16384x1024, .f32⟩
  | .local _ .vmem, ⟨0, _⟩ => ⟨S256x3x64, .f32⟩
  | .local _ .vmem, ⟨1, _⟩ => ⟨S256x3x64, .f32⟩
  | .local _ .vmem, ⟨2, _⟩ => ⟨S256x3072, .bf16⟩
  | .local _ .vmem, ⟨3, _⟩ => ⟨S256x3072, .bf16⟩
  | .local _ .vmem, ⟨4, _⟩ => ⟨S1088x3072, .bf16⟩
  | .local _ .vmem, ⟨5, _⟩ => ⟨S1024x3072, .bf16⟩
  | .local _ .vmem, ⟨6, _⟩ => ⟨S1x3072, .f32⟩
  | .local _ .vmem, ⟨7, _⟩ => ⟨S1x3072, .f32⟩
  | .local _ .vmem, ⟨8, _⟩ => ⟨S256x1024, .f32⟩
  | .local _ .vmem, ⟨9, _⟩ => ⟨S256x1024, .f32⟩
  | _, _ => ⟨S16384x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1088x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S3072x1088_S1088x3072_1_0 : S3072x1088.Transposes [1, 0] S1088x3072
  bitsLt_bf16_f32 : FTy.bits .bf16 < FTy.bits .f32
  transposes_S3072x1024_S1024x3072_1_0 : S3072x1024.Transposes [1, 0] S1024x3072
  shapeCasts_S3072_S1x3072 : S3072.ShapeCasts S1x3072
  slices_S1088x3072_S1024x3072_64_0 : S1088x3072.Slices ![64, 0] S1024x3072
  bcast_S1x3072_S100x3072_0_1 : S1x3072.BroadcastsInDim S100x3072 (![0, 1] : Fin 2 → Fin S100x3072.rank)
  bcast_S_S16384 : S_.BroadcastsInDim S16384 (![] : Fin 0 → Fin S16384.rank)
  bcast_S16384_S16384x1_0 : S16384.BroadcastsInDim S16384x1 (![0] : Fin 1 → Fin S16384x1.rank)
  inb_S1088x3072_S1088x3072_0_0 : ∀ a, (![0, 0] : Fin 2 → Nat) a + S1088x3072.size a ≤ S1088x3072.size a
  h_S1088x3072 : 0 < S1088x3072.numel
  shapeCasts_S1088x3072_S1088x3072 : S1088x3072.ShapeCasts S1088x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  inb_S256x3x64_S256x3x64_0_0_0 : ∀ a, (![0, 0, 0] : Fin 3 → Nat) a + S256x3x64.size a ≤ S256x3x64.size a
  h_S256x3x64 : 0 < S256x3x64.numel
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  slices_S1088x3072_o0_0_S64x3072 : S1088x3072.Slices ![0, 0] S64x3072
  slices_S1088x3072_o0_0_S1024x3072 : S1088x3072.Slices ![0, 0] S1024x3072
  slices_S1088x3072_o1024_0_S64x3072 : S1088x3072.Slices ![1024, 0] S64x3072
  slices_S256x3x64_o0_0_0_S256x1x64 : S256x3x64.Slices ![0, 0, 0] S256x1x64
  shapeCasts_S256x1x64_S256x64 : S256x1x64.ShapeCasts S256x64
  slices_S256x3x64_o0_1_0_S256x1x64 : S256x3x64.Slices ![0, 1, 0] S256x1x64
  slices_S256x3x64_o0_2_0_S256x1x64 : S256x3x64.Slices ![0, 2, 0] S256x1x64
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  broadcasts_S1x1024_S256x1024 : S1x1024.Broadcasts S256x1024
  broadcasts_S1x3072_S256x3072 : S1x3072.Broadcasts S256x3072
  inb_S256x1024_S256x1024_0_0 : ∀ a, (![0, 0] : Fin 2 → Nat) a + S256x1024.size a ≤ S256x1024.size a
  h_S256x1024 : 0 < S256x1024.numel
  bcast_S16384x1024_S1x16384x1024_1_2 : S16384x1024.BroadcastsInDim S1x16384x1024 (![1, 2] : Fin 2 → Fin S1x16384x1024.rank)
  dot_S100x1024_S1024x3072_S100x3072_1_0_0_1_n_n_wf : DotDims.WF S100x1024 S1024x3072 S100x3072 [1] [0] [0] [1] [] []
  gather_S100x3072_S16384x1_S16384x3072_1_0_n_n_0_1_13072_wf : GatherDims.WF S100x3072 S16384x1 S16384x3072 [1] [0] [] [0] [] 1 ![1, 3072]
  dot_S256x64_S64x3072_S256x3072_1_0_0_1_n_n_wf : DotDims.WF S256x64 S64x3072 S256x3072 [1] [0] [0] [1] [] []
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3x64.size a ≤ S16384x3x64.size a
  hwx0_0 : ∀ i : grid0.Coords, EltTy.bits .f32 = 32 ∨ (Rect.block (s := S16384x3x64) S256x3x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3072.size a ≤ S16384x3072.size a
  hwx0_1 : ∀ i : grid0.Coords, EltTy.bits .bf16 = 32 ∨ (Rect.block (s := S16384x3072) S256x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1088x3072.size a ≤ S1088x3072.size a
  hwx0_2 : ∀ i : grid0.Coords, EltTy.bits .bf16 = 32 ∨ (Rect.block (s := S1088x3072) S1088x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)

variable [Facts₀]

def dot_S100x1024_S1024x3072_S100x3072_1_0_0_1_n_n : DotDims S100x1024 S1024x3072 S100x3072 where
  lhsContracting := [1]
  rhsContracting := [0]
  lhsNonContracting := [0]
  rhsNonContracting := [1]
  lhsBatch := []
  rhsBatch := []
  wf := dot_S100x1024_S1024x3072_S100x3072_1_0_0_1_n_n_wf
def gather_S100x3072_S16384x1_S16384x3072_1_0_n_n_0_1_13072 : GatherDims S100x3072 S16384x1 S16384x3072 where
  offsetDims := [1]
  collapsedSliceDims := [0]
  operandBatchingDims := []
  startIndicesBatchingDims := []
  startIndexMap := [0]
  indexVectorDim := 1
  sliceSizes := ![1, 3072]
  wf := gather_S100x3072_S16384x1_S16384x3072_1_0_n_n_0_1_13072_wf
def dot_S256x64_S64x3072_S256x3072_1_0_0_1_n_n : DotDims S256x64 S64x3072 S256x3072 where
  lhsContracting := [1]
  rhsContracting := [0]
  lhsNonContracting := [0]
  rhsNonContracting := [1]
  lhsBatch := []
  rhsBatch := []
  wf := dot_S256x64_S64x3072_S256x3072_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x3x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1088x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x3x64 : Shape := ⟨3, ![16384, 3, 64]⟩
abbrev S16384 : Shape := ⟨1, ![16384]⟩
abbrev S100x1024 : Shape := ⟨2, ![100, 1024]⟩
abbrev S3072x1088 : Shape := ⟨2, ![3072, 1088]⟩
abbrev S3072x1024 : Shape := ⟨2, ![3072, 1024]⟩
abbrev S3072 : Shape := ⟨1, ![3072]⟩
abbrev S_ : Shape := ⟨0, ![]⟩
abbrev S16384x1 : Shape := ⟨2, ![16384, 1]⟩
abbrev S16384x1024 : Shape := ⟨2, ![16384, 1024]⟩
abbrev S16384x1x64 : Shape := ⟨3, ![16384, 1, 64]⟩
abbrev S16384x64 : Shape := ⟨2, ![16384, 64]⟩
abbrev S16384x1088 : Shape := ⟨2, ![16384, 1088]⟩
abbrev S1088x3072 : Shape := ⟨2, ![1088, 3072]⟩
abbrev S16384x3072 : Shape := ⟨2, ![16384, 3072]⟩
abbrev S1x3072 : Shape := ⟨2, ![1, 3072]⟩
abbrev S1024x3072 : Shape := ⟨2, ![1024, 3072]⟩
abbrev S1x16384x1024 : Shape := ⟨3, ![1, 16384, 1024]⟩

abbrev nBuf : Space → Nat
  | .hbm => 249
  | .vmem => 0
  | .smem => 0
  | _ => 0

abbrev hbmTy0_0 (i : Nat) : BufTy := match i % 128 with
  | 0 => ⟨S16384x3x64, .f32⟩
  | 1 => ⟨S16384, .i32⟩
  | 2 => ⟨S100x1024, .f32⟩
  | 3 => ⟨S3072x1088, .f32⟩
  | 4 => ⟨S3072x1024, .f32⟩
  | 5 => ⟨S3072, .f32⟩
  | 6 => ⟨S3072, .f32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S16384x1024, .f32⟩
  | 16 => ⟨S_, .f32⟩
  | 17 => ⟨S16384x1024, .f32⟩
  | 18 => ⟨S16384x1x64, .f32⟩
  | 19 => ⟨S16384x64, .f32⟩
  | 20 => ⟨S16384x1088, .f32⟩
  | 21 => ⟨S1088x3072, .f32⟩
  | 22 => ⟨S16384x3072, .f32⟩
  | 23 => ⟨S1x3072, .f32⟩
  | 24 => ⟨S16384x3072, .f32⟩
  | 25 => ⟨S16384x3072, .f32⟩
  | 26 => ⟨S1024x3072, .f32⟩
  | 27 => ⟨S16384x3072, .f32⟩
  | 28 => ⟨S1x3072, .f32⟩
  | 29 => ⟨S16384x3072, .f32⟩
  | 30 => ⟨S16384x3072, .f32⟩
  | 31 => ⟨S16384x1024, .f32⟩
  | 32 => ⟨S16384x1024, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S_, .f32⟩
  | 41 => ⟨S16384x1024, .f32⟩
  | 42 => ⟨S16384x1024, .f32⟩
  | 43 => ⟨S_, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S_, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S_, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S16384x1x64, .f32⟩
  | 65 => ⟨S16384x64, .f32⟩
  | 66 => ⟨S16384x1088, .f32⟩
  | 67 => ⟨S1088x3072, .f32⟩
  | 68 => ⟨S16384x3072, .f32⟩
  | 69 => ⟨S1x3072, .f32⟩
  | 70 => ⟨S16384x3072, .f32⟩
  | 71 => ⟨S16384x3072, .f32⟩
  | 72 => ⟨S1024x3072, .f32⟩
  | 73 => ⟨S16384x3072, .f32⟩
  | 74 => ⟨S1x3072, .f32⟩
  | 75 => ⟨S16384x3072, .f32⟩
  | 76 => ⟨S16384x3072, .f32⟩
  | 77 => ⟨S16384x1024, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | 83 => ⟨S16384x1024, .f32⟩
  | 84 => ⟨S16384x1024, .f32⟩
  | 85 => ⟨S16384x1024, .f32⟩
  | 86 => ⟨S_, .f32⟩
  | 87 => ⟨S16384x1024, .f32⟩
  | 88 => ⟨S16384x1024, .f32⟩
  | 89 => ⟨S_, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S_, .f32⟩
  | 96 => ⟨S16384x1024, .f32⟩
  | 97 => ⟨S16384x1024, .f32⟩
  | 98 => ⟨S_, .f32⟩
  | 99 => ⟨S16384x1024, .f32⟩
  | 100 => ⟨S16384x1024, .f32⟩
  | 101 => ⟨S16384x1024, .f32⟩
  | 102 => ⟨S16384x1024, .f32⟩
  | 103 => ⟨S16384x1024, .f32⟩
  | 104 => ⟨S_, .f32⟩
  | 105 => ⟨S16384x1024, .f32⟩
  | 106 => ⟨S16384x1024, .f32⟩
  | 107 => ⟨S16384x1024, .f32⟩
  | 108 => ⟨S16384x1024, .f32⟩
  | 109 => ⟨S16384x1024, .f32⟩
  | 110 => ⟨S16384x1x64, .f32⟩
  | 111 => ⟨S16384x64, .f32⟩
  | 112 => ⟨S16384x1088, .f32⟩
  | 113 => ⟨S1088x3072, .f32⟩
  | 114 => ⟨S16384x3072, .f32⟩
  | 115 => ⟨S1x3072, .f32⟩
  | 116 => ⟨S16384x3072, .f32⟩
  | 117 => ⟨S16384x3072, .f32⟩
  | 118 => ⟨S1024x3072, .f32⟩
  | 119 => ⟨S16384x3072, .f32⟩
  | 120 => ⟨S1x3072, .f32⟩
  | 121 => ⟨S16384x3072, .f32⟩
  | 122 => ⟨S16384x3072, .f32⟩
  | 123 => ⟨S16384x1024, .f32⟩
  | 124 => ⟨S16384x1024, .f32⟩
  | 125 => ⟨S16384x1024, .f32⟩
  | 126 => ⟨S16384x1024, .f32⟩
  | 127 => ⟨S16384x1024, .f32⟩
  | _ => ⟨S16384x3x64, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S_, .f32⟩
  | 5 => ⟨S16384x1024, .f32⟩
  | 6 => ⟨S16384x1024, .f32⟩
  | 7 => ⟨S_, .f32⟩
  | 8 => ⟨S16384x1024, .f32⟩
  | 9 => ⟨S16384x1024, .f32⟩
  | 10 => ⟨S16384x1024, .f32⟩
  | 11 => ⟨S16384x1024, .f32⟩
  | 12 => ⟨S16384x1024, .f32⟩
  | 13 => ⟨S_, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S16384x1024, .f32⟩
  | 26 => ⟨S16384x1024, .f32⟩
  | 27 => ⟨S16384x1024, .f32⟩
  | 28 => ⟨S16384x1x64, .f32⟩
  | 29 => ⟨S16384x64, .f32⟩
  | 30 => ⟨S16384x1088, .f32⟩
  | 31 => ⟨S1088x3072, .f32⟩
  | 32 => ⟨S16384x3072, .f32⟩
  | 33 => ⟨S1x3072, .f32⟩
  | 34 => ⟨S16384x3072, .f32⟩
  | 35 => ⟨S16384x3072, .f32⟩
  | 36 => ⟨S1024x3072, .f32⟩
  | 37 => ⟨S16384x3072, .f32⟩
  | 38 => ⟨S1x3072, .f32⟩
  | 39 => ⟨S16384x3072, .f32⟩
  | 40 => ⟨S16384x3072, .f32⟩
  | 41 => ⟨S16384x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S16384x1024, .f32⟩
  | 50 => ⟨S_, .f32⟩
  | 51 => ⟨S16384x1024, .f32⟩
  | 52 => ⟨S16384x1024, .f32⟩
  | 53 => ⟨S_, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S_, .f32⟩
  | 60 => ⟨S16384x1024, .f32⟩
  | 61 => ⟨S16384x1024, .f32⟩
  | 62 => ⟨S_, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S_, .f32⟩
  | 69 => ⟨S16384x1024, .f32⟩
  | 70 => ⟨S16384x1024, .f32⟩
  | 71 => ⟨S16384x1024, .f32⟩
  | 72 => ⟨S16384x1024, .f32⟩
  | 73 => ⟨S16384x1024, .f32⟩
  | 74 => ⟨S16384x1x64, .f32⟩
  | 75 => ⟨S16384x64, .f32⟩
  | 76 => ⟨S16384x1088, .f32⟩
  | 77 => ⟨S1088x3072, .f32⟩
  | 78 => ⟨S16384x3072, .f32⟩
  | 79 => ⟨S1x3072, .f32⟩
  | 80 => ⟨S16384x3072, .f32⟩
  | 81 => ⟨S16384x3072, .f32⟩
  | 82 => ⟨S1024x3072, .f32⟩
  | 83 => ⟨S16384x3072, .f32⟩
  | 84 => ⟨S1x3072, .f32⟩
  | 85 => ⟨S16384x3072, .f32⟩
  | 86 => ⟨S16384x3072, .f32⟩
  | 87 => ⟨S16384x1024, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S16384x1024, .f32⟩
  | 96 => ⟨S_, .f32⟩
  | 97 => ⟨S16384x1024, .f32⟩
  | 98 => ⟨S16384x1024, .f32⟩
  | 99 => ⟨S_, .f32⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | 105 => ⟨S_, .f32⟩
  | 106 => ⟨S16384x1024, .f32⟩
  | 107 => ⟨S16384x1024, .f32⟩
  | 108 => ⟨S_, .f32⟩
  | 109 => ⟨S16384x1024, .f32⟩
  | 110 => ⟨S16384x1024, .f32⟩
  | 111 => ⟨S16384x1024, .f32⟩
  | 112 => ⟨S16384x1024, .f32⟩
  | 113 => ⟨S16384x1024, .f32⟩
  | 114 => ⟨S_, .f32⟩
  | 115 => ⟨S16384x1024, .f32⟩
  | 116 => ⟨S16384x1024, .f32⟩
  | 117 => ⟨S16384x1024, .f32⟩
  | 118 => ⟨S16384x1024, .f32⟩
  | 119 => ⟨S16384x1024, .f32⟩
  | 120 => ⟨S1x16384x1024, .f32⟩
  | _ => ⟨S16384x3x64, .f32⟩

abbrev hbmTy (i : Nat) : BufTy := match i / 128 with
  | 0 => hbmTy0_0 i
  | 1 => hbmTy0_1 i
  | _ => ⟨S16384x3x64, .f32⟩

abbrev bufTy : (tb : Table) → Fin (tcTables nBuf tb) → BufTy
  | .hbm, ⟨i, _⟩ => hbmTy i
  | _, _ => ⟨S16384x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_6 : Ref sig .tc := ⟨.hbm, 86, rfl⟩
abbrev main_v71 : Ref sig .tc := ⟨.hbm, 87, rfl⟩
abbrev main_v72 : Ref sig .tc := ⟨.hbm, 88, rfl⟩
abbrev main_cst_7 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_8 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_11 : Ref sig .tc := ⟨.hbm, 132, rfl⟩
abbrev main_v112 : Ref sig .tc := ⟨.hbm, 133, rfl⟩
abbrev main_v113 : Ref sig .tc := ⟨.hbm, 134, rfl⟩
abbrev main_cst_12 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_13 : Ref sig .tc := ⟨.hbm, 141, rfl⟩
abbrev main_v119 : Ref sig .tc := ⟨.hbm, 142, rfl⟩
abbrev main_v120 : Ref sig .tc := ⟨.hbm, 143, rfl⟩
abbrev main_cst_14 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_15 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_cst_16 : Ref sig .tc := ⟨.hbm, 178, rfl⟩
abbrev main_v153 : Ref sig .tc := ⟨.hbm, 179, rfl⟩
abbrev main_v154 : Ref sig .tc := ⟨.hbm, 180, rfl⟩
abbrev main_cst_17 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_cst_18 : Ref sig .tc := ⟨.hbm, 187, rfl⟩
abbrev main_v160 : Ref sig .tc := ⟨.hbm, 188, rfl⟩
abbrev main_v161 : Ref sig .tc := ⟨.hbm, 189, rfl⟩
abbrev main_cst_19 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_cst_20 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_cst_21 : Ref sig .tc := ⟨.hbm, 224, rfl⟩
abbrev main_v194 : Ref sig .tc := ⟨.hbm, 225, rfl⟩
abbrev main_v195 : Ref sig .tc := ⟨.hbm, 226, rfl⟩
abbrev main_cst_22 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_cst_23 : Ref sig .tc := ⟨.hbm, 233, rfl⟩
abbrev main_v201 : Ref sig .tc := ⟨.hbm, 234, rfl⟩
abbrev main_v202 : Ref sig .tc := ⟨.hbm, 235, rfl⟩
abbrev main_cst_24 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_cst_25 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1024 : S_.BroadcastsInDim S16384x1024 (![] : Fin 0 → Fin S16384x1024.rank)
  slices_S16384x3x64_S16384x1x64_0_0_0 : S16384x3x64.Slices ![0, 0, 0] S16384x1x64
  shapeCasts_S16384x1x64_S16384x64 : S16384x1x64.ShapeCasts S16384x64
  concatenates_S16384x64_S16384x1024_S16384x1088_d1 : Shape.Concatenates [S16384x64, S16384x1024] S16384x1088 1
  transposes_S3072x1088_S1088x3072_1_0 : S3072x1088.Transposes [1, 0] S1088x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  transposes_S3072x1024_S1024x3072_1_0 : S3072x1024.Transposes [1, 0] S1024x3072
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  slices_S16384x3x64_S16384x1x64_0_1_0 : S16384x3x64.Slices ![0, 1, 0] S16384x1x64
  slices_S16384x3x64_S16384x1x64_0_2_0 : S16384x3x64.Slices ![0, 2, 0] S16384x1x64
  concatenates_S16384x1024_S16384x64_S16384x1088_d1 : Shape.Concatenates [S16384x1024, S16384x64] S16384x1088 1
  bcast_S16384x1024_S1x16384x1024_1_2 : S16384x1024.BroadcastsInDim S1x16384x1024 (![1, 2] : Fin 2 → Fin S1x16384x1024.rank)
  gather_S100x1024_S16384x1_S16384x1024_1_0_n_n_0_1_11024_wf : GatherDims.WF S100x1024 S16384x1 S16384x1024 [1] [0] [] [0] [] 1 ![1, 1024]
  dot_S16384x1088_S1088x3072_S16384x3072_1_0_0_1_n_n_wf : DotDims.WF S16384x1088 S1088x3072 S16384x3072 [1] [0] [0] [1] [] []
  dot_S16384x1024_S1024x3072_S16384x3072_1_0_0_1_n_n_wf : DotDims.WF S16384x1024 S1024x3072 S16384x3072 [1] [0] [0] [1] [] []

variable [Facts₀]

def gather_S100x1024_S16384x1_S16384x1024_1_0_n_n_0_1_11024 : GatherDims S100x1024 S16384x1 S16384x1024 where
  offsetDims := [1]
  collapsedSliceDims := [0]
  operandBatchingDims := []
  startIndicesBatchingDims := []
  startIndexMap := [0]
  indexVectorDim := 1
  sliceSizes := ![1, 1024]
  wf := gather_S100x1024_S16384x1_S16384x1024_1_0_n_n_0_1_11024_wf
def dot_S16384x1088_S1088x3072_S16384x3072_1_0_0_1_n_n : DotDims S16384x1088 S1088x3072 S16384x3072 where
  lhsContracting := [1]
  rhsContracting := [0]
  lhsNonContracting := [0]
  rhsNonContracting := [1]
  lhsBatch := []
  rhsBatch := []
  wf := dot_S16384x1088_S1088x3072_S16384x3072_1_0_0_1_n_n_wf
def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf

class Facts : Prop extends Facts₀ where

variable [Facts]
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.GruSpec.lean ====
/-
  The recurrence for ONE row, in two arrangements, and the algebra that identifies them.

  A row carries three observations o 0, o 1, o 2 (64 numbers each) and one embedding e (1024 numbers).  The input
  weights are read transposed, wT k j for input column k < 1088 and gate column j < 3072; the hidden weights
  likewise, uT k j for k < 1024.  A step's gates occupy columns [0, 1024), [1024, 2048) and [2048, 3072).

  The reference arrangement contracts a concatenated input over all 1088 columns and starts from the zero state.
  The kernel arrangement contracts the two pieces of each concatenation separately; in the first three steps it
  takes the embedding piece plus the input bias from a precomputed table row, and in the first step it uses the
  hidden bias in place of the hidden pre-activation and drops the term multiplying the (zero) previous state.

  On the extended reals the two agree by: a sum over a concatenation is the sum of the two sums; addition is
  associative; 0 * x = 0, x * 0 = 0 and x + 0 = x.  No finiteness is needed.
-/
import Idealize.ShloMosaic.PureOps.Ideal
import Idealize.ShloMosaic.PureOps.Ideal.Laws

noncomputable section

open scoped BigOperators

namespace Cert.Gru

open Idealize.ShloMosaic

/-- The number one as both programs carry it: the f32 word 0x3F800000. -/
abbrev one : EReal := Ideal.ofBits .f32 0x3F800000#32
/-- The number zero as both programs carry it: the f32 word 0. -/
abbrev zero : EReal := Ideal.ofBits .f32 0x00000000#32

theorem one_eq : one = 1 := by
  show Ideal.ofBits .f32 0x3F800000#32 = 1
  rw [show (1 : EReal) = ((1 : ℝ) : EReal) by norm_cast]
  simp [Ideal.ofBits, Ideal.ieee, -EReal.coe_mul]; norm_num

theorem zero_eq : zero = 0 := Ideal.ofBits_zero_f32

/-! ## Gate columns -/

/-- Column of the reset gate for hidden unit q. -/
def lo (q : Fin 1024) : Fin 3072 := ⟨q.val, by have := q.isLt; omega⟩
/-- Column of the update gate for hidden unit q. -/
def mid (q : Fin 1024) : Fin 3072 := ⟨1024 + q.val, by have := q.isLt; omega⟩
/-- Column of the candidate for hidden unit q. -/
def hi (q : Fin 1024) : Fin 3072 := ⟨2048 + q.val, by have := q.isLt; omega⟩

/-! ## Input columns -/

/-- The first 64 input columns. -/
def cA (k : Fin 64) : Fin 1088 := ⟨k.val, by have := k.isLt; omega⟩
/-- The 1024 input columns after the first 64. -/
def cB (k : Fin 1024) : Fin 1088 := ⟨64 + k.val, by have := k.isLt; omega⟩
/-- The first 1024 input columns. -/
def cC (k : Fin 1024) : Fin 1088 := ⟨k.val, by have := k.isLt; omega⟩
/-- The 64 input columns after the first 1024. -/
def cD (k : Fin 64) : Fin 1088 := ⟨1024 + k.val, by have := k.isLt; omega⟩

/-! ## One step -/

/-- The logistic function written as 1 / (1 + exp (-x)) with the programs' literal one. -/
def sgm (x : EReal) : EReal := Ideal.div one (one + Ideal.exp (-x))

/-- It is the ideal instance's logistic function, on every extended real. -/
theorem logistic_eq_sgm (x : EReal) : Ideal.logistic x = sgm x := by
  unfold sgm Ideal.logistic
  rw [one_eq]

/-- The new hidden unit q from input pre-activation gi, hidden pre-activation gh and previous state hp:
    (1 - z) * n + z * hp with r = sgm (gi_r + gh_r), z = sgm (gi_z + gh_z), n = tanh (gi_n + r * gh_n). -/
def gate (gi gh : Fin 3072 → EReal) (hp : Fin 1024 → EReal) (q : Fin 1024) : EReal :=
  (one - sgm (gi (mid q) + gh (mid q))) * Ideal.tanh (gi (hi q) + sgm (gi (lo q) + gh (lo q)) * gh (hi q))
    + sgm (gi (mid q) + gh (mid q)) * hp q

/-- The first step when the previous state is zero: the hidden pre-activation is the hidden bias b alone and the
    term z * hp is absent. -/
def gate0 (gi b : Fin 3072 → EReal) (q : Fin 1024) : EReal :=
  (one - sgm (gi (mid q) + b (mid q))) * Ideal.tanh (gi (hi q) + sgm (gi (lo q) + b (lo q)) * b (hi q))

section Row
variable (o : Fin 3 → Fin 64 → EReal) (wT : Fin 1088 → Fin 3072 → EReal) (uT : Fin 1024 → Fin 3072 → EReal)
  (bih bhh : Fin 3072 → EReal)

/-- The hidden pre-activation of a state h. -/
def hid (h : Fin 1024 → EReal) (j : Fin 3072) : EReal := (∑ k : Fin 1024, h k * uT k j) + bhh j

/-! ### The kernel's arrangement -/

/-- A table row: the embedding's share of the input pre-activation, with the input bias. -/
def tab (e : Fin 1024 → EReal) (j : Fin 3072) : EReal := (∑ k : Fin 1024, e k * wT (cB k) j) + bih j

/-- Steps 0-2: the observation's share plus the gathered table row ge. -/
def kin (ge : Fin 3072 → EReal) (s : Fin 3) (j : Fin 3072) : EReal := (∑ k : Fin 64, o s k * wT (cA k) j) + ge j

/-- Steps 3-4: a previous state's share plus the observation's share, then the input bias. -/
def kin' (h : Fin 1024 → EReal) (s : Fin 3) (j : Fin 3072) : EReal :=
  ((∑ k : Fin 1024, h k * wT (cC k) j) + (∑ k : Fin 64, o s k * wT (cD k) j)) + bih j

def kh0 (ge : Fin 3072 → EReal) : Fin 1024 → EReal := gate0 (kin o wT ge 0) bhh
def kh1 (ge : Fin 3072 → EReal) : Fin 1024 → EReal := gate (kin o wT ge 1) (hid uT bhh (kh0 o wT bhh ge)) (kh0 o wT bhh ge)
def kh2 (ge : Fin 3072 → EReal) : Fin 1024 → EReal :=
  gate (kin o wT ge 2) (hid uT bhh (kh1 o wT uT bhh ge)) (kh1 o wT uT bhh ge)
def kh3 (ge : Fin 3072 → EReal) : Fin 1024 → EReal :=
  gate (kin' o wT bih (kh0 o wT bhh ge) 1) (hid uT bhh (kh2 o wT uT bhh ge)) (kh2 o wT uT bhh ge)
/-- The row's result in the kernel's arrangement, from the observations and the gathered table row. -/
def kernelRow (ge : Fin 3072 → EReal) : Fin 1024 → EReal :=
  gate (kin' o wT bih (kh3 o wT uT bih bhh ge) 2) (hid uT bhh (kh3 o wT uT bih bhh ge)) (kh3 o wT uT bih bhh ge)

/-! ### The reference's arrangement -/

/-- A 64-wide piece followed by a 1024-wide piece. -/
def catA (a : Fin 64 → EReal) (b : Fin 1024 → EReal) (k : Fin 1088) : EReal :=
  if h : k.val < 64 then a ⟨k.val, h⟩ else b ⟨k.val - 64, by have := k.isLt; omega⟩

/-- A 1024-wide piece followed by a 64-wide piece. -/
def catC (a : Fin 1024 → EReal) (b : Fin 64 → EReal) (k : Fin 1088) : EReal :=
  if h : k.val < 1024 then a ⟨k.val, h⟩ else b ⟨k.val - 1024, by have := k.isLt; omega⟩

/-- The input pre-activation of a whole 1088-wide input. -/
def rin (x : Fin 1088 → EReal) (j : Fin 3072) : EReal := (∑ k : Fin 1088, x k * wT k j) + bih j

def rh0 (e : Fin 1024 → EReal) : Fin 1024 → EReal :=
  gate (rin wT bih (catA (o 0) e)) (hid uT bhh (fun _ => zero)) (fun _ => zero)
def rh1 (e : Fin 1024 → EReal) : Fin 1024 → EReal :=
  gate (rin wT bih (catA (o 1) e)) (hid uT bhh (rh0 o wT uT bih bhh e)) (rh0 o wT uT bih bhh e)
def rh2 (e : Fin 1024 → EReal) : Fin 1024 → EReal :=
  gate (rin wT bih (catA (o 2) e)) (hid uT bhh (rh1 o wT uT bih bhh e)) (rh1 o wT uT bih bhh e)
def rh3 (e : Fin 1024 → EReal) : Fin 1024 → EReal :=
  gate (rin wT bih (catC (rh0 o wT uT bih bhh e) (o 1))) (hid uT bhh (rh2 o wT uT bih bhh e)) (rh2 o wT uT bih bhh e)
/-- The row's result in the reference's arrangement, from the observations and the embedding. -/
def refRow (e : Fin 1024 → EReal) : Fin 1024 → EReal :=
  gate (rin wT bih (catC (rh3 o wT uT bih bhh e) (o 2))) (hid uT bhh (rh3 o wT uT bih bhh e)) (rh3 o wT uT bih bhh e)

end Row

/-! ## The algebra -/

/-- A sum over 1088 = 64 + 1024 positions is the sum over the first 64 plus the sum over the rest. -/
theorem sum_split_A (f : Fin 1088 → EReal) :
    ∑ k : Fin 1088, f k = (∑ k : Fin 64, f (cA k)) + ∑ k : Fin 1024, f (cB k) :=
  Fin.sum_univ_add (a := 64) (b := 1024) (f : Fin (64 + 1024) → EReal)

/-- A sum over 1088 = 1024 + 64 positions is the sum over the first 1024 plus the sum over the rest. -/
theorem sum_split_C (f : Fin 1088 → EReal) :
    ∑ k : Fin 1088, f k = (∑ k : Fin 1024, f (cC k)) + ∑ k : Fin 64, f (cD k) :=
  Fin.sum_univ_add (a := 1024) (b := 64) (f : Fin (1024 + 64) → EReal)

theorem catA_cA (a : Fin 64 → EReal) (b : Fin 1024 → EReal) (k : Fin 64) : catA a b (cA k) = a k := by
  unfold catA
  rw [dif_pos (show (cA k).val < 64 from k.isLt)]
  rfl

theorem catA_cB (a : Fin 64 → EReal) (b : Fin 1024 → EReal) (k : Fin 1024) : catA a b (cB k) = b k := by
  unfold catA
  rw [dif_neg (show ¬ (cB k).val < 64 from by show ¬ 64 + k.val < 64; omega)]
  exact congrArg b (Fin.ext (by show 64 + k.val - 64 = k.val; omega))

theorem catC_cC (a : Fin 1024 → EReal) (b : Fin 64 → EReal) (k : Fin 1024) : catC a b (cC k) = a k := by
  unfold catC
  rw [dif_pos (show (cC k).val < 1024 from k.isLt)]
  rfl

theorem catC_cD (a : Fin 1024 → EReal) (b : Fin 64 → EReal) (k : Fin 64) : catC a b (cD k) = b k := by
  unfold catC
  rw [dif_neg (show ¬ (cD k).val < 1024 from by show ¬ 1024 + k.val < 1024; omega)]
  exact congrArg b (Fin.ext (by show 1024 + k.val - 1024 = k.val; omega))

section Bridge
variable (o : Fin 3 → Fin 64 → EReal) (wT : Fin 1088 → Fin 3072 → EReal) (uT : Fin 1024 → Fin 3072 → EReal)
  (bih bhh : Fin 3072 → EReal) (e : Fin 1024 → EReal)

/-- Steps 0-2: contracting the concatenation [observation, embedding] is the observation's share plus the table row. -/
theorem rin_catA (s : Fin 3) : rin wT bih (catA (o s) e) = kin o wT (tab wT bih e) s := by
  funext j
  unfold rin kin tab
  rw [sum_split_A]
  simp only [catA_cA, catA_cB]
  exact add_assoc _ _ _

/-- Steps 3-4: contracting the concatenation [state, observation] is the state's share plus the observation's share. -/
theorem rin_catC (h : Fin 1024 → EReal) (s : Fin 3) : rin wT bih (catC h (o s)) = kin' o wT bih h s := by
  funext j
  unfold rin kin'
  rw [sum_split_C]
  simp only [catC_cC, catC_cD]

/-- The hidden pre-activation of the zero state is the hidden bias. -/
theorem hid_zero : hid uT bhh (fun _ => zero) = bhh := by
  funext j
  unfold hid
  rw [Finset.sum_eq_zero (fun k _ => by rw [zero_eq, zero_mul]), zero_add]

/-- From the zero state, a step is the first step's short form. -/
theorem gate_zero (gi : Fin 3072 → EReal) : gate gi bhh (fun _ => zero) = gate0 gi bhh := by
  funext q
  unfold gate gate0
  rw [zero_eq, mul_zero, add_zero]

/-- THE TWO ARRANGEMENTS AGREE: the reference's row result from the embedding e is the kernel's from the table row of e. -/
theorem refRow_eq_kernelRow : refRow o wT uT bih bhh e = kernelRow o wT uT bih bhh (tab wT bih e) := by
  have e0 : rh0 o wT uT bih bhh e = kh0 o wT bhh (tab wT bih e) := by
    unfold rh0 kh0
    rw [hid_zero, gate_zero, rin_catA]
  have e1 : rh1 o wT uT bih bhh e = kh1 o wT uT bhh (tab wT bih e) := by
    unfold rh1 kh1
    rw [e0, rin_catA]
  have e2 : rh2 o wT uT bih bhh e = kh2 o wT uT bhh (tab wT bih e) := by
    unfold rh2 kh2
    rw [e1, rin_catA]
  have e3 : rh3 o wT uT bih bhh e = kh3 o wT uT bih bhh (tab wT bih e) := by
    unfold rh3 kh3
    rw [e0, e2, rin_catC]
  unfold refRow kernelRow
  rw [e3, rin_catC]

end Bridge

end Cert.Gru

end
-- ==== Proof.GruOps.lean ====
/-
  The recurrence's array operations read at one row.

  Every lemma here says: if the operand arrays, read along row p, are given row functions, then the result array at
  (p, column) is the corresponding scalar expression of GruSpec.  The hypotheses are about row p only, which is why
  rows never mix: a step of the recurrence on an array of R rows is R independent copies of the row step.
  The same facts are stated twice, once in the operations a kernel body uses (a fused logistic, a broadcast of a
  one-row array, a product accumulated into a zero array) and once in the operations a host program uses (the
  logistic spelt as 1 / (1 + exp (-x)), broadcasts by dimension numbers, a host product, a concatenation).
  Everything is generic in the number of rows R.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import proofs.«179155_j90683939488368_2_alg».proof.Proof.LibMatRows
import proofs.«179155_j90683939488368_2_alg».proof.Proof.GruSpec

noncomputable section

open scoped BigOperators

namespace Cert.GruOps

open Idealize.ShloMosaic Idealize.ShloMosaic.ValueIdx Idealize.ShloMosaic.MatRows Cert.Gru

/-- A matrix shape. -/
abbrev M2 (a b : Nat) : Shape := ⟨2, ![a, b]⟩

variable {R : Nat}

/-! ## The three gate slices of a 3072-wide array -/

theorem sl_lo {α : Type} (X : (M2 R 3072).Idx → α) (h : (M2 R 3072).Slices ![0, 0] (M2 R 1024)) (p : Fin R) (q : Fin 1024) :
    extractStridedSlice (M2 R 1024) ![0, 0] X h (ix2 p q) = X (ix2 p (lo q)) :=
  slice2_axis1_apply 0 X h p q (lo q) (by show q.val = 0 + q.val; omega)

theorem sl_mid {α : Type} (X : (M2 R 3072).Idx → α) (h : (M2 R 3072).Slices ![0, 1024] (M2 R 1024)) (p : Fin R) (q : Fin 1024) :
    extractStridedSlice (M2 R 1024) ![0, 1024] X h (ix2 p q) = X (ix2 p (mid q)) :=
  slice2_axis1_apply 1024 X h p q (mid q) rfl

theorem sl_hi {α : Type} (X : (M2 R 3072).Idx → α) (h : (M2 R 3072).Slices ![0, 2048] (M2 R 1024)) (p : Fin R) (q : Fin 1024) :
    extractStridedSlice (M2 R 1024) ![0, 2048] X h (ix2 p q) = X (ix2 p (hi q)) :=
  slice2_axis1_apply 2048 X h p q (hi q) rfl

/-! ## Kernel operations -/

/-- One step's gates in a kernel body, at (p, q). -/
theorem kgate_apply (GI GH : FVec Ideal (M2 R 3072) .f32) (HP : FVec Ideal (M2 R 1024) .f32)
    (h0 : (M2 R 3072).Slices ![0, 0] (M2 R 1024)) (h1 : (M2 R 3072).Slices ![0, 1024] (M2 R 1024))
    (h2 : (M2 R 3072).Slices ![0, 2048] (M2 R 1024)) (p : Fin R) (q : Fin 1024)
    (gi gh : Fin 3072 → EReal) (hp : Fin 1024 → EReal)
    (hgi : ∀ j, GI (ix2 p j) = gi j) (hgh : ∀ j, GH (ix2 p j) = gh j) (hhp : HP (ix2 p q) = hp q) :
    addf (mulf (subf (broadcast (M2 R 1024) (Scalar.ofBits (F := Ideal) .f32 0x3F800000#32))
          (logistic (addf (extractStridedSlice (M2 R 1024) ![0, 1024] GI h1) (extractStridedSlice (M2 R 1024) ![0, 1024] GH h1))))
        (tanh (addf (extractStridedSlice (M2 R 1024) ![0, 2048] GI h2)
          (mulf (logistic (addf (extractStridedSlice (M2 R 1024) ![0, 0] GI h0) (extractStridedSlice (M2 R 1024) ![0, 0] GH h0)))
            (extractStridedSlice (M2 R 1024) ![0, 2048] GH h2)))))
      (mulf (logistic (addf (extractStridedSlice (M2 R 1024) ![0, 1024] GI h1) (extractStridedSlice (M2 R 1024) ![0, 1024] GH h1))) HP)
      (ix2 p q) = gate gi gh hp q := by
  show (Ideal.ofBits .f32 0x3F800000#32
        - Ideal.logistic (extractStridedSlice (M2 R 1024) ![0, 1024] GI h1 (ix2 p q) + extractStridedSlice (M2 R 1024) ![0, 1024] GH h1 (ix2 p q)))
      * Ideal.tanh (extractStridedSlice (M2 R 1024) ![0, 2048] GI h2 (ix2 p q)
        + Ideal.logistic (extractStridedSlice (M2 R 1024) ![0, 0] GI h0 (ix2 p q) + extractStridedSlice (M2 R 1024) ![0, 0] GH h0 (ix2 p q))
          * extractStridedSlice (M2 R 1024) ![0, 2048] GH h2 (ix2 p q))
    + Ideal.logistic (extractStridedSlice (M2 R 1024) ![0, 1024] GI h1 (ix2 p q) + extractStridedSlice (M2 R 1024) ![0, 1024] GH h1 (ix2 p q))
      * HP (ix2 p q) = _
  simp only [sl_lo, sl_mid, sl_hi, hgi, hgh, hhp, logistic_eq_sgm]
  rfl

/-- The first step's gates in a kernel body (hidden pre-activation = a one-row bias B, no z * h term), at (p, q). -/
theorem kgate0_apply (GI : FVec Ideal (M2 R 3072) .f32) (B : FVec Ideal (M2 1 3072) .f32)
    (h0 : (M2 R 3072).Slices ![0, 0] (M2 R 1024)) (h1 : (M2 R 3072).Slices ![0, 1024] (M2 R 1024))
    (h2 : (M2 R 3072).Slices ![0, 2048] (M2 R 1024))
    (b0 : (M2 1 3072).Slices ![0, 0] (M2 1 1024)) (b1 : (M2 1 3072).Slices ![0, 1024] (M2 1 1024))
    (b2 : (M2 1 3072).Slices ![0, 2048] (M2 1 1024)) (hbc : (M2 1 1024).Broadcasts (M2 R 1024)) (p : Fin R) (q : Fin 1024)
    (gi b : Fin 3072 → EReal) (hgi : ∀ j, GI (ix2 p j) = gi j) (hb : ∀ j, B (ix2 (0 : Fin 1) j) = b j) :
    mulf (subf (broadcast (M2 R 1024) (Scalar.ofBits (F := Ideal) .f32 0x3F800000#32))
          (logistic (addf (extractStridedSlice (M2 R 1024) ![0, 1024] GI h1)
            (broadcastTo (M2 R 1024) (extractStridedSlice (M2 1 1024) ![0, 1024] B b1) hbc))))
        (tanh (addf (extractStridedSlice (M2 R 1024) ![0, 2048] GI h2)
          (mulf (logistic (addf (extractStridedSlice (M2 R 1024) ![0, 0] GI h0)
              (broadcastTo (M2 R 1024) (extractStridedSlice (M2 1 1024) ![0, 0] B b0) hbc)))
            (broadcastTo (M2 R 1024) (extractStridedSlice (M2 1 1024) ![0, 2048] B b2) hbc))))
      (ix2 p q) = gate0 gi b q := by
  show (Ideal.ofBits .f32 0x3F800000#32
        - Ideal.logistic (extractStridedSlice (M2 R 1024) ![0, 1024] GI h1 (ix2 p q)
            + broadcastTo (M2 R 1024) (extractStridedSlice (M2 1 1024) ![0, 1024] B b1) hbc (ix2 p q)))
      * Ideal.tanh (extractStridedSlice (M2 R 1024) ![0, 2048] GI h2 (ix2 p q)
        + Ideal.logistic (extractStridedSlice (M2 R 1024) ![0, 0] GI h0 (ix2 p q)
            + broadcastTo (M2 R 1024) (extractStridedSlice (M2 1 1024) ![0, 0] B b0) hbc (ix2 p q))
          * broadcastTo (M2 R 1024) (extractStridedSlice (M2 1 1024) ![0, 2048] B b2) hbc (ix2 p q)) = _
  simp only [broadcastTo_1b_ab_apply, sl_lo, sl_mid, sl_hi, hgi, hb, logistic_eq_sgm]
  rfl

/-- A kernel product into the zero array at (p, j), from the operands' row p and column j. -/
theorem kmm_apply {K C : Nat} {φ₁ φ₂ : FTy} (d : DotDims (M2 R K) (M2 K C) (M2 R C)) (hd : d = DotDims.plain R K C)
    (X : FVec Ideal (M2 R K) φ₁) (W : FVec Ideal (M2 K C) φ₂) (p : Fin R) (j : Fin C)
    (x w : Fin K → EReal) (hx : ∀ k, X (ix2 p k) = x k) (hw : ∀ k, W (ix2 k j) = w k) :
    matmul d none X W (constant (F := Ideal) (M2 R C) .f32 0x00000000#32) (ix2 p j) = ∑ k : Fin K, x k * w k := by
  subst hd
  rw [matmul_plain_apply]
  exact Finset.sum_congr rfl fun k _ => by rw [hx, hw]

/-- Steps 0-2 in a kernel body: the observation's product plus the gathered table block, at (p, j). -/
theorem kin_apply (d : DotDims (M2 R 64) (M2 64 3072) (M2 R 3072)) (hd : d = DotDims.plain R 64 3072)
    (X : FVec Ideal (M2 R 64) .bf16) (W : FVec Ideal (M2 64 3072) .bf16) (E : FVec Ideal (M2 R 3072) .f32) (p : Fin R) (j : Fin 3072)
    (o : Fin 3 → Fin 64 → EReal) (wT : Fin 1088 → Fin 3072 → EReal) (ge : Fin 3072 → EReal) (s : Fin 3)
    (hx : ∀ k, X (ix2 p k) = o s k) (hw : ∀ k, W (ix2 k j) = wT (cA k) j) (hE : E (ix2 p j) = ge j) :
    addf (matmul d none X W (constant (F := Ideal) (M2 R 3072) .f32 0x00000000#32)) E (ix2 p j) = kin o wT ge s j := by
  show matmul d none X W (constant (F := Ideal) (M2 R 3072) .f32 0x00000000#32) (ix2 p j) + E (ix2 p j) = _
  rw [kmm_apply d hd X W p j (o s) (fun k => wT (cA k) j) hx hw, hE]
  rfl

/-- The hidden pre-activation in a kernel body: the state's product plus the one-row hidden bias, at (p, j). -/
theorem khid_apply (d : DotDims (M2 R 1024) (M2 1024 3072) (M2 R 3072)) (hd : d = DotDims.plain R 1024 3072)
    (H : FVec Ideal (M2 R 1024) .bf16) (U : FVec Ideal (M2 1024 3072) .bf16) (B : FVec Ideal (M2 1 3072) .f32)
    (hbc : (M2 1 3072).Broadcasts (M2 R 3072)) (p : Fin R) (j : Fin 3072)
    (h : Fin 1024 → EReal) (uT : Fin 1024 → Fin 3072 → EReal) (bhh : Fin 3072 → EReal)
    (hH : ∀ k, H (ix2 p k) = h k) (hU : ∀ k, U (ix2 k j) = uT k j) (hB : B (ix2 (0 : Fin 1) j) = bhh j) :
    addf (matmul d none H U (constant (F := Ideal) (M2 R 3072) .f32 0x00000000#32)) (broadcastTo (M2 R 3072) B hbc) (ix2 p j)
      = hid uT bhh h j := by
  show matmul d none H U (constant (F := Ideal) (M2 R 3072) .f32 0x00000000#32) (ix2 p j) + broadcastTo (M2 R 3072) B hbc (ix2 p j) = _
  rw [kmm_apply d hd H U p j h (fun k => uT k j) hH hU, broadcastTo_1b_ab_apply, hB]
  rfl

/-- Steps 3-4 in a kernel body: a state's product plus the observation's product plus the one-row input bias, at (p, j). -/
theorem kin'_apply (d1 : DotDims (M2 R 1024) (M2 1024 3072) (M2 R 3072)) (hd1 : d1 = DotDims.plain R 1024 3072)
    (d2 : DotDims (M2 R 64) (M2 64 3072) (M2 R 3072)) (hd2 : d2 = DotDims.plain R 64 3072)
    (H : FVec Ideal (M2 R 1024) .bf16) (WC : FVec Ideal (M2 1024 3072) .bf16)
    (X : FVec Ideal (M2 R 64) .bf16) (WD : FVec Ideal (M2 64 3072) .bf16) (B : FVec Ideal (M2 1 3072) .f32)
    (hbc : (M2 1 3072).Broadcasts (M2 R 3072)) (p : Fin R) (j : Fin 3072)
    (o : Fin 3 → Fin 64 → EReal) (wT : Fin 1088 → Fin 3072 → EReal) (bih : Fin 3072 → EReal) (h : Fin 1024 → EReal) (s : Fin 3)
    (hH : ∀ k, H (ix2 p k) = h k) (hWC : ∀ k, WC (ix2 k j) = wT (cC k) j)
    (hX : ∀ k, X (ix2 p k) = o s k) (hWD : ∀ k, WD (ix2 k j) = wT (cD k) j) (hB : B (ix2 (0 : Fin 1) j) = bih j) :
    addf (addf (matmul d1 none H WC (constant (F := Ideal) (M2 R 3072) .f32 0x00000000#32))
        (matmul d2 none X WD (constant (F := Ideal) (M2 R 3072) .f32 0x00000000#32))) (broadcastTo (M2 R 3072) B hbc) (ix2 p j)
      = kin' o wT bih h s j := by
  show (matmul d1 none H WC (constant (F := Ideal) (M2 R 3072) .f32 0x00000000#32) (ix2 p j)
      + matmul d2 none X WD (constant (F := Ideal) (M2 R 3072) .f32 0x00000000#32) (ix2 p j)) + broadcastTo (M2 R 3072) B hbc (ix2 p j) = _
  rw [kmm_apply d1 hd1 H WC p j h (fun k => wT (cC k) j) hH hWC, kmm_apply d2 hd2 X WD p j (o s) (fun k => wT (cD k) j) hX hWD,
    broadcastTo_1b_ab_apply, hB]
  rfl

/-! ## Whole steps in a kernel body -/

/-- One step whose hidden pre-activation is computed from the previous state's array HPrev, at (p, q): the row step of
    row p's input pre-activation gi and previous state hp. -/
theorem kstep_apply (d : DotDims (M2 R 1024) (M2 1024 3072) (M2 R 3072)) (hd : d = DotDims.plain R 1024 3072)
    (GI : FVec Ideal (M2 R 3072) .f32) (HPrev : FVec Ideal (M2 R 1024) .f32) (U : FVec Ideal (M2 1024 3072) .bf16)
    (B : FVec Ideal (M2 1 3072) .f32) (ht : FTy.bits .bf16 < FTy.bits .f32) (hbc : (M2 1 3072).Broadcasts (M2 R 3072))
    (h0 : (M2 R 3072).Slices ![0, 0] (M2 R 1024)) (h1 : (M2 R 3072).Slices ![0, 1024] (M2 R 1024))
    (h2 : (M2 R 3072).Slices ![0, 2048] (M2 R 1024)) (p : Fin R) (q : Fin 1024)
    (gi : Fin 3072 → EReal) (hp : Fin 1024 → EReal) (uT : Fin 1024 → Fin 3072 → EReal) (bhh : Fin 3072 → EReal)
    (hgi : ∀ j, GI (ix2 p j) = gi j) (hhp : ∀ k, HPrev (ix2 p k) = hp k) (hU : ∀ k j, U (ix2 k j) = uT k j)
    (hB : ∀ j, B (ix2 (0 : Fin 1) j) = bhh j) :
    addf (mulf (subf (broadcast (M2 R 1024) (Scalar.ofBits (F := Ideal) .f32 0x3F800000#32))
          (logistic (addf (extractStridedSlice (M2 R 1024) ![0, 1024] GI h1) (extractStridedSlice (M2 R 1024) ![0, 1024] (addf (matmul d none (truncf .bf16 HPrev ht) U (constant (F := Ideal) (M2 R 3072) .f32 0x00000000#32)) (broadcastTo (M2 R 3072) B hbc)) h1))))
        (tanh (addf (extractStridedSlice (M2 R 1024) ![0, 2048] GI h2)
          (mulf (logistic (addf (extractStridedSlice (M2 R 1024) ![0, 0] GI h0) (extractStridedSlice (M2 R 1024) ![0, 0] (addf (matmul d none (truncf .bf16 HPrev ht) U (constant (F := Ideal) (M2 R 3072) .f32 0x00000000#32)) (broadcastTo (M2 R 3072) B hbc)) h0)))
            (extractStridedSlice (M2 R 1024) ![0, 2048] (addf (matmul d none (truncf .bf16 HPrev ht) U (constant (F := Ideal) (M2 R 3072) .f32 0x00000000#32)) (broadcastTo (M2 R 3072) B hbc)) h2)))))
      (mulf (logistic (addf (extractStridedSlice (M2 R 1024) ![0, 1024] GI h1) (extractStridedSlice (M2 R 1024) ![0, 1024] (addf (matmul d none (truncf .bf16 HPrev ht) U (constant (F := Ideal) (M2 R 3072) .f32 0x00000000#32)) (broadcastTo (M2 R 3072) B hbc)) h1))) HPrev)
      (ix2 p q) = gate gi (hid uT bhh hp) hp q :=
  kgate_apply GI (addf (matmul d none (truncf .bf16 HPrev ht) U (constant (F := Ideal) (M2 R 3072) .f32 0x00000000#32)) (broadcastTo (M2 R 3072) B hbc)) HPrev h0 h1 h2 p q gi (hid uT bhh hp) hp hgi
    (fun j => khid_apply d hd (truncf .bf16 HPrev ht) U B hbc p j hp uT bhh hhp (fun k => hU k j) (hB j)) (hhp q)

/-- One step of the last two, where the input pre-activation too is computed from the previous state's array HPrev
    (its product with the first 1024 weight rows) and an observation block X (its product with the last 64), at (p, q). -/
theorem kstep4_apply (d : DotDims (M2 R 1024) (M2 1024 3072) (M2 R 3072)) (hd : d = DotDims.plain R 1024 3072)
    (d2 : DotDims (M2 R 64) (M2 64 3072) (M2 R 3072)) (hd2 : d2 = DotDims.plain R 64 3072)
    (HPrev : FVec Ideal (M2 R 1024) .f32) (WC U : FVec Ideal (M2 1024 3072) .bf16) (X : FVec Ideal (M2 R 64) .bf16)
    (WD : FVec Ideal (M2 64 3072) .bf16) (B5 B : FVec Ideal (M2 1 3072) .f32)
    (ht : FTy.bits .bf16 < FTy.bits .f32) (hbc : (M2 1 3072).Broadcasts (M2 R 3072))
    (h0 : (M2 R 3072).Slices ![0, 0] (M2 R 1024)) (h1 : (M2 R 3072).Slices ![0, 1024] (M2 R 1024))
    (h2 : (M2 R 3072).Slices ![0, 2048] (M2 R 1024)) (p : Fin R) (q : Fin 1024)
    (o : Fin 3 → Fin 64 → EReal) (wT : Fin 1088 → Fin 3072 → EReal) (uT : Fin 1024 → Fin 3072 → EReal) (bih bhh : Fin 3072 → EReal)
    (hp : Fin 1024 → EReal) (s : Fin 3)
    (hhp : ∀ k, HPrev (ix2 p k) = hp k) (hWC : ∀ k j, WC (ix2 k j) = wT (cC k) j) (hX : ∀ k, X (ix2 p k) = o s k)
    (hWD : ∀ k j, WD (ix2 k j) = wT (cD k) j) (hB5 : ∀ j, B5 (ix2 (0 : Fin 1) j) = bih j)
    (hU : ∀ k j, U (ix2 k j) = uT k j) (hB : ∀ j, B (ix2 (0 : Fin 1) j) = bhh j) :
    addf (mulf (subf (broadcast (M2 R 1024) (Scalar.ofBits (F := Ideal) .f32 0x3F800000#32))
          (logistic (addf (extractStridedSlice (M2 R 1024) ![0, 1024] (addf (addf (matmul d none (truncf .bf16 HPrev ht) WC (constant (F := Ideal) (M2 R 3072) .f32 0x00000000#32)) (matmul d2 none X WD (constant (F := Ideal) (M2 R 3072) .f32 0x00000000#32))) (broadcastTo (M2 R 3072) B5 hbc)) h1) (extractStridedSlice (M2 R 1024) ![0, 1024] (addf (matmul d none (truncf .bf16 HPrev ht) U (constant (F := Ideal) (M2 R 3072) .f32 0x00000000#32)) (broadcastTo (M2 R 3072) B hbc)) h1))))
        (tanh (addf (extractStridedSlice (M2 R 1024) ![0, 2048] (addf (addf (matmul d none (truncf .bf16 HPrev ht) WC (constant (F := Ideal) (M2 R 3072) .f32 0x00000000#32)) (matmul d2 none X WD (constant (F := Ideal) (M2 R 3072) .f32 0x00000000#32))) (broadcastTo (M2 R 3072) B5 hbc)) h2)
          (mulf (logistic (addf (extractStridedSlice (M2 R 1024) ![0, 0] (addf (addf (matmul d none (truncf .bf16 HPrev ht) WC (constant (F := Ideal) (M2 R 3072) .f32 0x00000000#32)) (matmul d2 none X WD (constant (F := Ideal) (M2 R 3072) .f32 0x00000000#32))) (broadcastTo (M2 R 3072) B5 hbc)) h0) (extractStridedSlice (M2 R 1024) ![0, 0] (addf (matmul d none (truncf .bf16 HPrev ht) U (constant (F := Ideal) (M2 R 3072) .f32 0x00000000#32)) (broadcastTo (M2 R 3072) B hbc)) h0)))
            (extractStridedSlice (M2 R 1024) ![0, 2048] (addf (matmul d none (truncf .bf16 HPrev ht) U (constant (F := Ideal) (M2 R 3072) .f32 0x00000000#32)) (broadcastTo (M2 R 3072) B hbc)) h2)))))
      (mulf (logistic (addf (extractStridedSlice (M2 R 1024) ![0, 1024] (addf (addf (matmul d none (truncf .bf16 HPrev ht) WC (constant (F := Ideal) (M2 R 3072) .f32 0x00000000#32)) (matmul d2 none X WD (constant (F := Ideal) (M2 R 3072) .f32 0x00000000#32))) (broadcastTo (M2 R 3072) B5 hbc)) h1) (extractStridedSlice (M2 R 1024) ![0, 1024] (addf (matmul d none (truncf .bf16 HPrev ht) U (constant (F := Ideal) (M2 R 3072) .f32 0x00000000#32)) (broadcastTo (M2 R 3072) B hbc)) h1))) HPrev)
      (ix2 p q) = gate (kin' o wT bih hp s) (hid uT bhh hp) hp q :=
  kstep_apply d hd (addf (addf (matmul d none (truncf .bf16 HPrev ht) WC (constant (F := Ideal) (M2 R 3072) .f32 0x00000000#32)) (matmul d2 none X WD (constant (F := Ideal) (M2 R 3072) .f32 0x00000000#32))) (broadcastTo (M2 R 3072) B5 hbc)) HPrev U B ht hbc h0 h1 h2 p q (kin' o wT bih hp s) hp uT bhh
    (fun j => kin'_apply d hd d2 hd2 (truncf .bf16 HPrev ht) WC X WD B5 hbc p j o wT bih hp s hhp (fun k => hWC k j) hX
      (fun k => hWD k j) (hB5 j)) hhp hU hB

/-! ## Host operations -/

/-- The literal one broadcast to every entry. -/
theorem hone_apply (hb : (⟨0, ![]⟩ : Shape).BroadcastsInDim (M2 R 1024) ![]) (i : (M2 R 1024).Idx) :
    broadcastInDim (M2 R 1024) ![] hb (constant (F := Ideal) ⟨0, ![]⟩ .f32 0x3F800000#32) i = one :=
  broadcastInDim_scalar_apply hb _ i

/-- One step's gates in a host program, at (p, q); Z names the update gate's array. -/
theorem hgate_apply (GI GH : FVec Ideal (M2 R 3072) .f32) (HP Z : FVec Ideal (M2 R 1024) .f32)
    (hb : (⟨0, ![]⟩ : Shape).BroadcastsInDim (M2 R 1024) ![])
    (h0 : (M2 R 3072).Slices ![0, 0] (M2 R 1024)) (h1 : (M2 R 3072).Slices ![0, 1024] (M2 R 1024))
    (h2 : (M2 R 3072).Slices ![0, 2048] (M2 R 1024))
    (hZ : Z = Host.divf (broadcastInDim (M2 R 1024) ![] hb (constant (F := Ideal) ⟨0, ![]⟩ .f32 0x3F800000#32))
      (addf (broadcastInDim (M2 R 1024) ![] hb (constant (F := Ideal) ⟨0, ![]⟩ .f32 0x3F800000#32))
        (Host.exp (Host.negf (addf (extractStridedSlice (M2 R 1024) ![0, 1024] GI h1) (extractStridedSlice (M2 R 1024) ![0, 1024] GH h1))))))
    (p : Fin R) (q : Fin 1024) (gi gh : Fin 3072 → EReal) (hp : Fin 1024 → EReal)
    (hgi : ∀ j, GI (ix2 p j) = gi j) (hgh : ∀ j, GH (ix2 p j) = gh j) (hhp : HP (ix2 p q) = hp q) :
    addf (mulf (subf (broadcastInDim (M2 R 1024) ![] hb (constant (F := Ideal) ⟨0, ![]⟩ .f32 0x3F800000#32)) Z)
        (Host.tanh (addf (extractStridedSlice (M2 R 1024) ![0, 2048] GI h2)
          (mulf (Host.divf (broadcastInDim (M2 R 1024) ![] hb (constant (F := Ideal) ⟨0, ![]⟩ .f32 0x3F800000#32))
              (addf (broadcastInDim (M2 R 1024) ![] hb (constant (F := Ideal) ⟨0, ![]⟩ .f32 0x3F800000#32))
                (Host.exp (Host.negf (addf (extractStridedSlice (M2 R 1024) ![0, 0] GI h0) (extractStridedSlice (M2 R 1024) ![0, 0] GH h0))))))
            (extractStridedSlice (M2 R 1024) ![0, 2048] GH h2)))))
      (mulf Z HP) (ix2 p q) = gate gi gh hp q := by
  subst hZ
  show (broadcastInDim (M2 R 1024) ![] hb (constant (F := Ideal) ⟨0, ![]⟩ .f32 0x3F800000#32) (ix2 p q)
        - Ideal.div (broadcastInDim (M2 R 1024) ![] hb (constant (F := Ideal) ⟨0, ![]⟩ .f32 0x3F800000#32) (ix2 p q))
            (broadcastInDim (M2 R 1024) ![] hb (constant (F := Ideal) ⟨0, ![]⟩ .f32 0x3F800000#32) (ix2 p q)
              + Ideal.exp (-(extractStridedSlice (M2 R 1024) ![0, 1024] GI h1 (ix2 p q) + extractStridedSlice (M2 R 1024) ![0, 1024] GH h1 (ix2 p q)))))
      * Ideal.tanh (extractStridedSlice (M2 R 1024) ![0, 2048] GI h2 (ix2 p q)
        + Ideal.div (broadcastInDim (M2 R 1024) ![] hb (constant (F := Ideal) ⟨0, ![]⟩ .f32 0x3F800000#32) (ix2 p q))
            (broadcastInDim (M2 R 1024) ![] hb (constant (F := Ideal) ⟨0, ![]⟩ .f32 0x3F800000#32) (ix2 p q)
              + Ideal.exp (-(extractStridedSlice (M2 R 1024) ![0, 0] GI h0 (ix2 p q) + extractStridedSlice (M2 R 1024) ![0, 0] GH h0 (ix2 p q))))
          * extractStridedSlice (M2 R 1024) ![0, 2048] GH h2 (ix2 p q))
    + Ideal.div (broadcastInDim (M2 R 1024) ![] hb (constant (F := Ideal) ⟨0, ![]⟩ .f32 0x3F800000#32) (ix2 p q))
          (broadcastInDim (M2 R 1024) ![] hb (constant (F := Ideal) ⟨0, ![]⟩ .f32 0x3F800000#32) (ix2 p q)
            + Ideal.exp (-(extractStridedSlice (M2 R 1024) ![0, 1024] GI h1 (ix2 p q) + extractStridedSlice (M2 R 1024) ![0, 1024] GH h1 (ix2 p q))))
      * HP (ix2 p q) = _
  simp only [hone_apply, sl_lo, sl_mid, sl_hi, hgi, hgh, hhp]
  rfl

/-- A [C] array broadcast to one row and then down R rows reads, at (p, j), the array at j. -/
theorem hbias_apply {C : Nat} (BV : FVec Ideal ⟨1, ![C]⟩ .f32) (hb1 : (⟨1, ![C]⟩ : Shape).BroadcastsInDim (M2 1 C) ![1])
    (hb2 : (M2 1 C).BroadcastsInDim (M2 R C) ![0, 1]) (p : Fin R) (j : Fin C) :
    broadcastInDim (M2 R C) ![0, 1] hb2 (broadcastInDim (M2 1 C) ![1] hb1 BV) (ix2 p j) = BV (ix1 j) := by
  rw [broadcastInDim_oneRow_apply]
  refine broadcastInDim_apply ![1] hb1 BV (ix2 (0 : Fin 1) j) (ix1 j) ?_
  intro a
  fin_cases a
  show j.val = if C = 1 then 0 else j.val
  split_ifs with hn
  · have := j.isLt; omega
  · rfl

/-- A host product at (p, j), from the operands' row p and column j. -/
theorem hmm_apply {K C : Nat} {φ₁ φ₂ : FTy} (d : DotDims (M2 R K) (M2 K C) (M2 R C)) (hd : d = DotDims.plain R K C)
    (X : FVec Ideal (M2 R K) φ₁) (W : FVec Ideal (M2 K C) φ₂) (p : Fin R) (j : Fin C)
    (x w : Fin K → EReal) (hx : ∀ k, X (ix2 p k) = x k) (hw : ∀ k, W (ix2 k j) = w k) :
    (Host.dotGeneral (F := Ideal) d none X W : FVec Ideal (M2 R C) .f32) (ix2 p j) = ∑ k : Fin K, x k * w k := by
  subst hd
  rw [dotGeneral_plain_apply]
  exact Finset.sum_congr rfl fun k _ => by rw [hx, hw]

/-- The input pre-activation in a host program: a product over all 1088 columns plus the input bias, at (p, j). -/
theorem hin_apply (d : DotDims (M2 R 1088) (M2 1088 3072) (M2 R 3072)) (hd : d = DotDims.plain R 1088 3072)
    (X : FVec Ideal (M2 R 1088) .f32) (WT : FVec Ideal (M2 1088 3072) .f32) (BV : FVec Ideal ⟨1, ![3072]⟩ .f32)
    (hb1 : (⟨1, ![3072]⟩ : Shape).BroadcastsInDim (M2 1 3072) ![1]) (hb2 : (M2 1 3072).BroadcastsInDim (M2 R 3072) ![0, 1])
    (p : Fin R) (j : Fin 3072) (x : Fin 1088 → EReal) (wT : Fin 1088 → Fin 3072 → EReal) (bih : Fin 3072 → EReal)
    (hX : ∀ k, X (ix2 p k) = x k) (hW : ∀ k, WT (ix2 k j) = wT k j) (hB : BV (ix1 j) = bih j) :
    addf (Host.dotGeneral (F := Ideal) d none X WT) (broadcastInDim (M2 R 3072) ![0, 1] hb2 (broadcastInDim (M2 1 3072) ![1] hb1 BV)) (ix2 p j)
      = rin wT bih x j := by
  show (Host.dotGeneral (F := Ideal) d none X WT : FVec Ideal (M2 R 3072) .f32) (ix2 p j)
    + broadcastInDim (M2 R 3072) ![0, 1] hb2 (broadcastInDim (M2 1 3072) ![1] hb1 BV) (ix2 p j) = _
  rw [hmm_apply d hd X WT p j x (fun k => wT k j) hX hW, hbias_apply, hB]
  rfl

/-- The hidden pre-activation in a host program, at (p, j). -/
theorem hhid_apply (d : DotDims (M2 R 1024) (M2 1024 3072) (M2 R 3072)) (hd : d = DotDims.plain R 1024 3072)
    (H : FVec Ideal (M2 R 1024) .f32) (UT : FVec Ideal (M2 1024 3072) .f32) (BV : FVec Ideal ⟨1, ![3072]⟩ .f32)
    (hb1 : (⟨1, ![3072]⟩ : Shape).BroadcastsInDim (M2 1 3072) ![1]) (hb2 : (M2 1 3072).BroadcastsInDim (M2 R 3072) ![0, 1])
    (p : Fin R) (j : Fin 3072) (h : Fin 1024 → EReal) (uT : Fin 1024 → Fin 3072 → EReal) (bhh : Fin 3072 → EReal)
    (hH : ∀ k, H (ix2 p k) = h k) (hU : ∀ k, UT (ix2 k j) = uT k j) (hB : BV (ix1 j) = bhh j) :
    addf (Host.dotGeneral (F := Ideal) d none H UT) (broadcastInDim (M2 R 3072) ![0, 1] hb2 (broadcastInDim (M2 1 3072) ![1] hb1 BV)) (ix2 p j)
      = hid uT bhh h j := by
  show (Host.dotGeneral (F := Ideal) d none H UT : FVec Ideal (M2 R 3072) .f32) (ix2 p j)
    + broadcastInDim (M2 R 3072) ![0, 1] hb2 (broadcastInDim (M2 1 3072) ![1] hb1 BV) (ix2 p j) = _
  rw [hmm_apply d hd H UT p j h (fun k => uT k j) hH hU, hbias_apply, hB]
  rfl

/-- A [R, 64] array followed along the columns by a [R, 1024] array, at (p, k). -/
theorem hcatA_apply {α : Type} (A : (M2 R 64).Idx → α) (B : (M2 R 1024).Idx → α)
    (hc : Shape.Concatenates [M2 R 64, M2 R 1024] (M2 R 1088) (1 : Fin 2)) (p : Fin R) (k : Fin 1088) :
    concatenate (M2 R 1088) (1 : Fin 2) [⟨M2 R 64, A⟩, ⟨M2 R 1024, B⟩] hc (ix2 p k)
      = if h : k.val < 64 then A (ix2 p ⟨k.val, h⟩) else B (ix2 p ⟨k.val - 64, by have := k.isLt; omega⟩) := by
  by_cases h : k.val < 64
  · rw [dif_pos h]
    refine concatenate_pair_apply_left (1 : Fin 2) A B hc (ix2 p k) rfl (ix2 p ⟨k.val, h⟩) ?_
    intro b
    match b with
    | ⟨0, _⟩ => rfl
    | ⟨1, _⟩ => rfl
  · rw [dif_neg h]
    refine concatenate_pair_apply_right (1 : Fin 2) A B hc (ix2 p k) rfl rfl (ix2 p ⟨k.val - 64, by have := k.isLt; omega⟩) ?_ ?_
    · intro b hb
      match b with
      | ⟨0, _⟩ => rfl
      | ⟨1, _⟩ => exact absurd rfl hb
    · show k.val - 64 + 64 = k.val
      omega

/-- A [R, 1024] array followed along the columns by a [R, 64] array, at (p, k). -/
theorem hcatC_apply {α : Type} (A : (M2 R 1024).Idx → α) (B : (M2 R 64).Idx → α)
    (hc : Shape.Concatenates [M2 R 1024, M2 R 64] (M2 R 1088) (1 : Fin 2)) (p : Fin R) (k : Fin 1088) :
    concatenate (M2 R 1088) (1 : Fin 2) [⟨M2 R 1024, A⟩, ⟨M2 R 64, B⟩] hc (ix2 p k)
      = if h : k.val < 1024 then A (ix2 p ⟨k.val, h⟩) else B (ix2 p ⟨k.val - 1024, by have := k.isLt; omega⟩) := by
  by_cases h : k.val < 1024
  · rw [dif_pos h]
    refine concatenate_pair_apply_left (1 : Fin 2) A B hc (ix2 p k) rfl (ix2 p ⟨k.val, h⟩) ?_
    intro b
    match b with
    | ⟨0, _⟩ => rfl
    | ⟨1, _⟩ => rfl
  · rw [dif_neg h]
    refine concatenate_pair_apply_right (1 : Fin 2) A B hc (ix2 p k) rfl rfl (ix2 p ⟨k.val - 1024, by have := k.isLt; omega⟩) ?_ ?_
    · intro b hb
      match b with
      | ⟨0, _⟩ => rfl
      | ⟨1, _⟩ => exact absurd rfl hb
    · show k.val - 1024 + 1024 = k.val
      omega

/-- Time step s of a [R, 3, 64] array, cut out and flattened to [R, 64], at (p, k). -/
theorem obsStep_apply {α : Type} (OBS : (⟨3, ![R, 3, 64]⟩ : Shape).Idx → α) (o : Nat) (s : Fin 3) (hso : s.val = o)
    (hs : (⟨3, ![R, 3, 64]⟩ : Shape).Slices ![0, o, 0] ⟨3, ![R, 1, 64]⟩)
    (hc : (⟨3, ![R, 1, 64]⟩ : Shape).ShapeCasts (M2 R 64)) (p : Fin R) (k : Fin 64) :
    shapeCast (M2 R 64) (extractStridedSlice ⟨3, ![R, 1, 64]⟩ ![0, o, 0] OBS hs) hc (ix2 p k) = OBS (ix3 p s k) := by
  rw [shapeCast_apply _ hc (ix2 p k) (ix3 p (0 : Fin 1) k) (by
    rw [Shape.rowMajor_val_three, Shape.rowMajor_val_two]
    show (p.val * 1 + 0) * 64 + k.val = p.val * 64 + k.val
    omega)]
  exact slice3_axis1_apply o OBS hs p (0 : Fin 1) k s (by show s.val = o + 0; omega)

end Cert.GruOps

end
-- ==== Proof.KernelBlock.lean ====
/-
  What the kernel body stores, read one entry at a time.

  At a grid point the body holds a block of 256 rows: their observations x0 [256, 3, 64], their gathered table rows
  x1 [256, 3072], and the whole transposed input weights x2 [1088, 3072], transposed hidden weights x3 [1024, 3072],
  input bias x4 [1, 3072] and hidden bias x5 [1, 3072].  It stores one [256, 1024] block.  Entry (p, q) of that block
  depends on row p of x0 and x1 only, and is the kernel-arrangement row result of GruSpec: the body's five steps are,
  row by row, kh0, kh1, kh2, kh3 and kernelRow.
-/
import proofs.«179155_j90683939488368_2_alg».proof.Proof.Gen.KernelIdeal.Skeleton
import proofs.«179155_j90683939488368_2_alg».proof.Proof.Gen.KernelIdeal.Frame
import proofs.«179155_j90683939488368_2_alg».proof.Proof.GruOps

set_option maxRecDepth 16384

noncomputable section

open scoped BigOperators

namespace Cert.GruKernel

open Idealize.ShloMosaic Idealize.ShloMosaic.ValueIdx Cert.KernelIdeal Cert.KernelIdeal.Gen Cert.Gru Cert.GruOps

/-! ## A block's rows as plain functions -/

/-- Row p's three observations. -/
def obsRow (x0 : Vec Ideal S256x3x64 .f32) (p : Fin 256) : Fin 3 → Fin 64 → EReal := fun s k => x0 (ix3 p s k)
/-- Row p's gathered table row. -/
def geRow (x1 : Vec Ideal S256x3072 .bf16) (p : Fin 256) : Fin 3072 → EReal := fun j => x1 (ix2 p j)
/-- The transposed input weights. -/
def wTk (x2 : Vec Ideal S1088x3072 .bf16) : Fin 1088 → Fin 3072 → EReal := fun k j => x2 (ix2 k j)
/-- The transposed hidden weights. -/
def uTk (x3 : Vec Ideal S1024x3072 .bf16) : Fin 1024 → Fin 3072 → EReal := fun k j => x3 (ix2 k j)
/-- A one-row bias. -/
def bRow (x : Vec Ideal S1x3072 .f32) : Fin 3072 → EReal := fun j => x (ix2 (0 : Fin 1) j)

/-! ## The loaded values, re-laid -/

theorem pay2_apply (v2 : Vec Ideal S1024x3072 .bf16) (k : Fin 1024) (j : Fin 3072) : k0_pay2 v2 (ix2 k j) = uTk v2 k j := by
  unfold k0_pay2; rw [shapeCast_self]; rfl

theorem pay3_apply (v4 : Vec Ideal S1x3072 .f32) (j : Fin 3072) : k0_pay3 v4 (ix2 (0 : Fin 1) j) = bRow v4 j := by
  unfold k0_pay3; rw [shapeCast_self]; rfl

theorem pay4_apply (v6 : Vec Ideal S1x3072 .f32) (j : Fin 3072) : k0_pay4 v6 (ix2 (0 : Fin 1) j) = bRow v6 j := by
  unfold k0_pay4; rw [shapeCast_self]; rfl

theorem pay5_apply (v9 : Vec Ideal S256x3072 .bf16) (p : Fin 256) (j : Fin 3072) : k0_pay5 v9 (ix2 p j) = geRow v9 p j := by
  unfold k0_pay5; rw [shapeCast_self]; rfl

/-- The first 64 weight rows. -/
theorem pay6_apply (v0 : Vec Ideal S1088x3072 .bf16) (k : Fin 64) (j : Fin 3072) : k0_pay6 v0 (ix2 k j) = wTk v0 (cA k) j := by
  unfold k0_pay6 k0_pay1; rw [shapeCast_self]
  exact slice2_axis0_apply 0 _ _ k j (cA k) (by show k.val = 0 + k.val; omega)

/-- The first 1024 weight rows. -/
theorem pay7_apply (v0 : Vec Ideal S1088x3072 .bf16) (k : Fin 1024) (j : Fin 3072) : k0_pay7 v0 (ix2 k j) = wTk v0 (cC k) j := by
  unfold k0_pay7 k0_pay1; rw [shapeCast_self]
  exact slice2_axis0_apply 0 _ _ k j (cC k) (by show k.val = 0 + k.val; omega)

/-- The last 64 weight rows. -/
theorem pay8_apply (v0 : Vec Ideal S1088x3072 .bf16) (k : Fin 64) (j : Fin 3072) : k0_pay8 v0 (ix2 k j) = wTk v0 (cD k) j := by
  unfold k0_pay8 k0_pay1; rw [shapeCast_self]
  exact slice2_axis0_apply 1024 _ _ k j (cD k) rfl

/-- Time step s of the block's observations, cut out, flattened and narrowed (a change of format is the identity here). -/
theorem obsK_apply (v8 : Vec Ideal S256x3x64 .f32) (off : Nat) (s : Fin 3) (hs : s.val = off)
    (h1 : S256x3x64.Slices ![0, off, 0] S256x1x64) (h2 : S256x1x64.ShapeCasts S256x64)
    (ht : FTy.bits .bf16 < FTy.bits .f32) (p : Fin 256) (k : Fin 64) :
    (truncf (F := Ideal) .bf16 (shapeCast S256x64 (extractStridedSlice S256x1x64 ![0, off, 0] v8 h1) h2) ht
      : FVec Ideal S256x64 .bf16) (ix2 p k) = obsRow v8 p s k :=
  obsStep_apply (R := 256) v8 off s hs h1 h2 p k

/-- The second observation of each row. -/
theorem pay9_apply (v8 : Vec Ideal S256x3x64 .f32) (p : Fin 256) (k : Fin 64) : k0_pay9 v8 (ix2 p k) = obsRow v8 p 1 k := by
  unfold k0_pay9
  exact obsK_apply v8 1 (1 : Fin 3) rfl _ _ _ p k

/-- The third observation of each row. -/
theorem pay10_apply (v8 : Vec Ideal S256x3x64 .f32) (p : Fin 256) (k : Fin 64) : k0_pay10 v8 (ix2 p k) = obsRow v8 p 2 k := by
  unfold k0_pay10
  exact obsK_apply v8 2 (2 : Fin 3) rfl _ _ _ p k

/-! ## The steps -/

/-- The first step's input pre-activation. -/
theorem pay11_apply (v0 : Vec Ideal S1088x3072 .bf16) (v8 : Vec Ideal S256x3x64 .f32) (v9 : Vec Ideal S256x3072 .bf16)
    (p : Fin 256) (j : Fin 3072) : k0_pay11 v0 v8 v9 (ix2 p j) = kin (obsRow v8 p) (wTk v0) (geRow v9 p) 0 j := by
  unfold k0_pay11
  exact kin_apply (R := 256) _ rfl _ _ _ p j (obsRow v8 p) (wTk v0) (geRow v9 p) 0
    (fun k => obsK_apply v8 0 (0 : Fin 3) rfl _ _ _ p k) (fun k => pay6_apply v0 k j) (pay5_apply v9 p j)

/-- After the first step. -/
theorem pay14_apply (v0 : Vec Ideal S1088x3072 .bf16) (v6 : Vec Ideal S1x3072 .f32) (v8 : Vec Ideal S256x3x64 .f32)
    (v9 : Vec Ideal S256x3072 .bf16) (p : Fin 256) (q : Fin 1024) :
    k0_pay14 (k0_pay12 v0 v6 v8 v9) (k0_pay13 v0 v6 v8 v9) (ix2 p q)
      = kh0 (obsRow v8 p) (wTk v0) (bRow v6) (geRow v9 p) q := by
  unfold k0_pay14 k0_pay12 k0_pay13
  exact kgate0_apply (R := 256) (k0_pay11 v0 v8 v9) (k0_pay4 v6) _ _ _ _ _ _ _ p q _ (bRow v6)
    (fun j => pay11_apply v0 v8 v9 p j) (fun j => pay4_apply v6 j)

section Abstract
variable (o : Fin 3 → Fin 64 → EReal) (wT : Fin 1088 → Fin 3072 → EReal) (uT : Fin 1024 → Fin 3072 → EReal)
  (bih bhh ge : Fin 3072 → EReal)

/-- After the third step, from the first step's result and the re-laid loads. -/
theorem pay15_apply (v3 : FVec Ideal S1024x3072 .bf16) (v7 : FVec Ideal S1x3072 .f32) (v11 : FVec Ideal S256x3072 .f32)
    (v12 : FVec Ideal S64x3072 .bf16) (v20 v23 : FVec Ideal S256x64 .bf16) (v41 v43 : FVec Ideal S256x1024 .f32)
    (p : Fin 256) (q : Fin 1024)
    (h3 : ∀ k j, v3 (ix2 k j) = uT k j) (h7 : ∀ j, v7 (ix2 (0 : Fin 1) j) = bhh j) (h11 : ∀ j, v11 (ix2 p j) = ge j)
    (h12 : ∀ k j, v12 (ix2 k j) = wT (cA k) j) (h20 : ∀ k, v20 (ix2 p k) = o 1 k) (h23 : ∀ k, v23 (ix2 p k) = o 2 k)
    (h0 : ∀ k, k0_pay14 v41 v43 (ix2 p k) = kh0 o wT bhh ge k) :
    k0_pay15 v3 v7 v11 v12 v20 v23 v41 v43 (ix2 p q) = kh2 o wT uT bhh ge q := by
  unfold k0_pay15
  refine kstep_apply (R := 256) _ rfl _ _ v3 v7 _ _ _ _ _ p q (kin o wT ge 2) (kh1 o wT uT bhh ge) uT bhh
    (fun j => ?_) (fun k => ?_) h3 h7
  · exact kin_apply (R := 256) _ rfl v23 v12 v11 p j o wT ge 2 h23 (fun k => h12 k j) (h11 j)
  · refine kstep_apply (R := 256) _ rfl _ (k0_pay14 v41 v43) v3 v7 _ _ _ _ _ p k (kin o wT ge 1) (kh0 o wT bhh ge) uT bhh
      (fun j => ?_) h0 h3 h7
    exact kin_apply (R := 256) _ rfl v20 v12 v11 p j o wT ge 1 h20 (fun k => h12 k j) (h11 j)

/-- The first step's result times the first 1024 weight rows. -/
theorem pay16_apply (v13 : FVec Ideal S1024x3072 .bf16) (v41 v43 : FVec Ideal S256x1024 .f32) (p : Fin 256) (j : Fin 3072)
    (h13 : ∀ k j, v13 (ix2 k j) = wT (cC k) j) (h0 : ∀ k, k0_pay14 v41 v43 (ix2 p k) = kh0 o wT bhh ge k) :
    k0_pay16 v13 v41 v43 (ix2 p j) = ∑ k : Fin 1024, kh0 o wT bhh ge k * wT (cC k) j := by
  unfold k0_pay16
  exact kmm_apply (R := 256) _ rfl _ v13 p j (kh0 o wT bhh ge) (fun k => wT (cC k) j) h0 (fun k => h13 k j)

/-- The second observation times the last 64 weight rows. -/
theorem pay17_apply (v14 : FVec Ideal S64x3072 .bf16) (v20 : FVec Ideal S256x64 .bf16) (p : Fin 256) (j : Fin 3072)
    (h14 : ∀ k j, v14 (ix2 k j) = wT (cD k) j) (h20 : ∀ k, v20 (ix2 p k) = o 1 k) :
    k0_pay17 v14 v20 (ix2 p j) = ∑ k : Fin 64, o 1 k * wT (cD k) j := by
  unfold k0_pay17
  exact kmm_apply (R := 256) _ rfl v20 v14 p j (o 1) (fun k => wT (cD k) j) h20 (fun k => h14 k j)

/-- After the fifth step, from the third step's result, the two products and the re-laid loads. -/
theorem pay18_apply (v3 : FVec Ideal S1024x3072 .bf16) (v5 v7 : FVec Ideal S1x3072 .f32) (v13 : FVec Ideal S1024x3072 .bf16)
    (v14 : FVec Ideal S64x3072 .bf16) (v23 : FVec Ideal S256x64 .bf16) (v92 : FVec Ideal S256x1024 .f32)
    (v94 v95 : FVec Ideal S256x3072 .f32) (p : Fin 256) (q : Fin 1024)
    (h3 : ∀ k j, v3 (ix2 k j) = uT k j) (h5 : ∀ j, v5 (ix2 (0 : Fin 1) j) = bih j) (h7 : ∀ j, v7 (ix2 (0 : Fin 1) j) = bhh j)
    (h13 : ∀ k j, v13 (ix2 k j) = wT (cC k) j) (h14 : ∀ k j, v14 (ix2 k j) = wT (cD k) j) (h23 : ∀ k, v23 (ix2 p k) = o 2 k)
    (h92 : ∀ k, v92 (ix2 p k) = kh2 o wT uT bhh ge k)
    (h94 : ∀ j, v94 (ix2 p j) = ∑ k : Fin 1024, kh0 o wT bhh ge k * wT (cC k) j)
    (h95 : ∀ j, v95 (ix2 p j) = ∑ k : Fin 64, o 1 k * wT (cD k) j) :
    k0_pay18 v3 v5 v7 v13 v14 v23 v92 v94 v95 (ix2 p q) = kernelRow o wT uT bih bhh ge q := by
  unfold k0_pay18
  refine kstep4_apply (R := 256) _ rfl _ rfl _ v13 v3 v23 v14 v5 v7 _ _ _ _ _ p q o wT uT bih bhh (kh3 o wT uT bih bhh ge) 2
    (fun k => ?_) h13 h23 h14 h5 h3 h7
  refine kstep_apply (R := 256) _ rfl _ v92 v3 v7 _ _ _ _ _ p k (kin' o wT bih (kh0 o wT bhh ge) 1) (kh2 o wT uT bhh ge) uT bhh
    (fun j => ?_) h92 h3 h7
  show (v94 (ix2 p j) + v95 (ix2 p j)) + broadcastTo S256x3072 v5 _ (ix2 p j) = _
  rw [h94, h95, broadcastTo_1b_ab_apply, h5]
  rfl

end Abstract

/-! ## The stored block -/

theorem hz2 : (![0, 0] : Fin 2 → Nat) = fun _ => 0 := funext fun a => by fin_cases a <;> rfl
theorem hz3 : (![0, 0, 0] : Fin 3 → Nat) = fun _ => 0 := funext fun a => by fin_cases a <;> rfl

/-- ENTRY (p, q) OF THE STORED BLOCK is the kernel-arrangement row result of row p's observations and table row. -/
theorem out_apply (x0 : Vec Ideal S256x3x64 .f32) (x1 : Vec Ideal S256x3072 .bf16) (x2 : Vec Ideal S1088x3072 .bf16)
    (x3 : Vec Ideal S1024x3072 .bf16) (x4 x5 : Vec Ideal S1x3072 .f32) (p : Fin 256) (q : Fin 1024) :
    out0_6 x0 x1 x2 x3 x4 x5 (ix2 p q)
      = kernelRow (obsRow x0 p) (wTk x2) (uTk x3) (bRow x4) (bRow x5) (geRow x1 p) q := by
  unfold out0_6
  rw [View.canon_unit_zero hz2]
  simp only [View.ld_unit_zero (S := S1088x3072) hz2, View.ld_unit_zero (S := S1024x3072) hz2,
    View.ld_unit_zero (S := S1x3072) hz2, View.ld_unit_zero (S := S256x3x64) hz3, View.ld_unit_zero (S := S256x3072) hz2]
  have h0 : ∀ k, k0_pay14 (k0_pay12 x2 x5 x0 x1) (k0_pay13 x2 x5 x0 x1) (ix2 p k)
      = kh0 (obsRow x0 p) (wTk x2) (bRow x5) (geRow x1 p) k := fun k => pay14_apply x2 x5 x0 x1 p k
  exact pay18_apply (obsRow x0 p) (wTk x2) (uTk x3) (bRow x4) (bRow x5) (geRow x1 p) _ _ _ _ _ _ _ _ _ p q
    (fun k j => pay2_apply x3 k j) (fun j => pay3_apply x4 j) (fun j => pay4_apply x5 j)
    (fun k j => pay7_apply x2 k j) (fun k j => pay8_apply x2 k j) (fun k => pay10_apply x0 p k)
    (fun k => pay15_apply (obsRow x0 p) (wTk x2) (uTk x3) (bRow x5) (geRow x1 p) _ _ _ _ _ _ _ _ p k
      (fun k j => pay2_apply x3 k j) (fun j => pay4_apply x5 j) (fun j => pay5_apply x1 p j) (fun k j => pay6_apply x2 k j)
      (fun k => pay9_apply x0 p k) (fun k => pay10_apply x0 p k) h0)
    (fun j => pay16_apply (obsRow x0 p) (wTk x2) (bRow x5) (geRow x1 p) _ _ _ p j (fun k j => pay7_apply x2 k j) h0)
    (fun j => pay17_apply (obsRow x0 p) (wTk x2) _ _ p j (fun k j => pay8_apply x2 k j) (fun k => pay9_apply x0 p k))

end Cert.GruKernel

end
-- ==== Proof.LibGatherScatter.lean ====
/-
  Row gathers and accumulating row scatters on the host, read at an index.

  `x[idx]` of an array `x : [N, C]` (or a flat `x : [N]`) at a column of start indices `idx : [M, 1]` lowers to a
  `stablehlo.gather` that collapses axis 0: result row `e` is operand row `idx[e, 0]`, the start index read as a signed
  integer and clamped into `[0, N - 1]`. `segment_sum` / `.at[idx].add` lowers to a `stablehlo.scatter` with an `add`
  body that inserts axis 0: at the ideal instance operand row `n` receives the sum of the update rows `e` whose start
  index, read signed and NOT clamped, is exactly `n`; an update whose start index is outside `[0, N)` is dropped.
  Everything here is generic in the extents `N`, `M`, `C` and in the width of the index words.
-/
import Idealize.ShloMosaic.PureOps.Ideal
import Idealize.ShloMosaic.Lib.ValueIdx

noncomputable section

open scoped BigOperators

namespace Idealize.ShloMosaic.RowIdx

open Idealize.ShloMosaic Idealize.ShloMosaic.ValueIdx

/-! ## A start index clamped into the rows -/

/-- A signed start index clamped into `[0, N - 1]`: the row a gather reads. -/
def clampRow (N : Nat) (hN : 0 < N) {w : Nat} (v : BitVec w) : Fin N := ⟨min v.toInt.toNat (N - 1), by omega⟩

/-- A start index that IS a row number is its own clamp. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  rw [h, Int.toNat_natCast]
  have := n.isLt
  omega

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers of rows -/

section Gather
variable {α : Type}

/-- The dimension numbers of `x[idx]` for `x : [N, C]`, `idx : [M, 1]`: axis 0 collapsed and indexed, axis 1 an offset axis. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Result element `(e, q)` of a row gather is the operand at row `clamp idx[e, 0]`, column `q`. -/
theorem rowGather_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (q : Fin C) :
    Host.gather (rowGatherDims N M C wf) x idx (ix2 e q) = x (ix2 (clampRow N hN (idx (ix2 e (0 : Fin 1)))) q) := by
  unfold Host.gather
  congr 1
  funext a
  refine Fin.ext ?_
  match a with
  | ⟨0, _⟩ =>
    show (rowGatherDims N M C wf).start (ix2 e q) idx 0 + (rowGatherDims N M C wf).batchCoord (ix2 e q) 0
      + (rowGatherDims N M C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e q) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e q) idx 1 + (rowGatherDims N M C wf).batchCoord (ix2 e q) 1
      + (rowGatherDims N M C wf).offCoord (ix2 e q) 1 = q.val
    rw [GatherDims.batchCoord_eq_zero _ _ _ List.not_mem_nil]
    have hs : (rowGatherDims N M C wf).start (ix2 e q) idx 1 = 0 := by
      unfold GatherDims.start
      rw [dif_neg (fun h => absurd (List.mem_singleton.mp h) (show ¬ ((1 : Fin 2) = 0) by decide))]
    rw [hs]
    simp only [Nat.add_zero, Nat.zero_add]
    rfl

/-- The dimension numbers of `x[idx]` for a flat `x : [N]`, `idx : [M, 1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Result element `e` of a flat gather is the operand at `clamp idx[e, 0]`. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e) = x (ix1 (clampRow N hN (idx (ix2 e (0 : Fin 1))))) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatters of rows, at the ideal instance -/

/-- An update lands at operand index `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro he a
      have h1 : (d.start j idx a + (d.window j a : Int)).toNat = (i a).val := congrArg (fun f => (f a).val) he
      have h2 := (h a).1
      omega
    · intro he
      funext a
      apply Fin.ext
      show (d.start j idx a + (d.window j a : Int)).toNat = (i a).val
      rw [he a, Int.toNat_natCast]
  · next h =>
    constructor
    · intro he; cases he
    · intro he
      refine absurd (fun a => ⟨?_, ?_⟩) h
      · rw [he a]; exact Int.natCast_nonneg _
      · rw [he a]; exact_mod_cast (i a).isLt

/-- The dimension numbers of `x.at[idx].add(upd)` for `x : [N, C]`, `idx : [M, 1]`, `upd : [M, C]`: axis 0 inserted and
    indexed, axis 1 a window axis. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (q' : Fin C)

theorem rowScatter_start0 : (rowScatterDims N M C wf).start (ix2 e q') idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e q') ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 : (rowScatterDims N M C wf).start (ix2 e q') idx 1 = 0 := by
  unfold ScatterDims.start
  rw [dif_neg (fun h => absurd (List.mem_singleton.mp h) (show ¬ ((1 : Fin 2) = 0) by decide))]

theorem rowScatter_window0 : (rowScatterDims N M C wf).window (ix2 e q') 0 = 0 := by
  have hmem : ¬ ((0 : Fin 2) ∈ (rowScatterDims N M C wf).sKept) := by
    show (0 : Fin 2) ∉ ([1] : List (Fin 2)); decide
  unfold ScatterDims.window
  rw [dif_neg hmem]

theorem rowScatter_window1 : (rowScatterDims N M C wf).window (ix2 e q') 1 = q'.val := by
  have hmem : (1 : Fin 2) ∈ (rowScatterDims N M C wf).sKept := by
    show (1 : Fin 2) ∈ ([1] : List (Fin 2)); decide
  unfold ScatterDims.window
  rw [dif_pos hmem]
  rfl

/-- Update `(e, q')` lands at `(n, q)` exactly when its start index is `n` and the columns agree. -/
theorem rowScatter_lands_iff (n : Fin N) (q : Fin C) :
    (rowScatterDims N M C wf).resultIdx? (ix2 e q') idx = some (ix2 n q)
      ↔ (idx (ix2 e (0 : Fin 1))).toInt = (n.val : Int) ∧ q' = q := by
  rw [resultIdx?_eq_some_iff]
  constructor
  · intro h
    have h0 := h 0
    have h1 := h 1
    rw [rowScatter_start0, rowScatter_window0] at h0
    rw [rowScatter_start1, rowScatter_window1] at h1
    have h0' : (idx (ix2 e (0 : Fin 1))).toInt + ((0 : Nat) : Int) = (n.val : Int) := h0
    have h1' : (0 : Int) + (q'.val : Int) = (q.val : Int) := h1
    refine ⟨by simpa using h0', Fin.ext (by omega)⟩
  · rintro ⟨h0, rfl⟩ a
    match a with
    | ⟨0, _⟩ =>
      show (rowScatterDims N M C wf).start (ix2 e q') idx 0 + ((rowScatterDims N M C wf).window (ix2 e q') 0 : Int) = (n.val : Int)
      rw [rowScatter_start0, rowScatter_window0, h0]; simp
    | ⟨1, _⟩ =>
      show (rowScatterDims N M C wf).start (ix2 e q') idx 1 + ((rowScatterDims N M C wf).window (ix2 e q') 1 : Int) = (q'.val : Int)
      rw [rowScatter_start1, rowScatter_window1]; simp

end RowScatter

/-- THE ROW SCATTER-ADD READ AT `(n, q)`: the operand there plus the sum, over the update rows `e` whose start index is
    `n`, of the update at `(e, q)`. -/
theorem rowScatterAdd_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (q : Fin C) :
    Ideal.hostScatterAdd (rowScatterDims N M C wf) x idx upd (ix2 n q)
      = x (ix2 n q) + ∑ e ∈ Finset.univ.filter (fun e : Fin M => (idx (ix2 e (0 : Fin 1))).toInt = (n.val : Int)), upd (ix2 e q) := by
  unfold Ideal.hostScatterAdd
  congr 1
  rw [Finset.sum_filter, sum_idx2, Finset.sum_filter]
  refine Finset.sum_congr rfl fun e _ => ?_
  simp only [rowScatter_lands_iff]
  by_cases h : (idx (ix2 e (0 : Fin 1))).toInt = (n.val : Int)
  · simp only [h, true_and, if_true]
    rw [Finset.sum_ite_eq' Finset.univ q (fun b => upd (ix2 e b))]
    simp
  · simp only [h, false_and, if_false, Finset.sum_const_zero]

/-- The dimension numbers of `x.at[idx].add(upd)` for a flat `x : [N]`, `idx : [M, 1]`, `upd : [M]`. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)
  (idx : IVec ⟨2, ![M, 1]⟩ w) (e : Fin M)

theorem flatScatter_start0 : (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatterDims N M wf).window (ix1 e) 0 = 0 := by
  have hmem : ¬ ((0 : Fin 1) ∈ (flatScatterDims N M wf).sKept) := by
    show (0 : Fin 1) ∉ ([] : List (Fin 1)); decide
  unfold ScatterDims.window
  rw [dif_neg hmem]

/-- Update `e` lands at `n` exactly when its start index is `n`. -/
theorem flatScatter_lands_iff (n : Fin N) :
    (flatScatterDims N M wf).resultIdx? (ix1 e) idx = some (ix1 n) ↔ (idx (ix2 e (0 : Fin 1))).toInt = (n.val : Int) := by
  rw [resultIdx?_eq_some_iff]
  constructor
  · intro h
    have h0 := h 0
    rw [flatScatter_start0, flatScatter_window0] at h0
    have h0' : (idx (ix2 e (0 : Fin 1))).toInt + ((0 : Nat) : Int) = (n.val : Int) := h0
    simpa using h0'
  · intro h0 a
    obtain rfl : a = 0 := Subsingleton.elim _ _
    show (flatScatterDims N M wf).start (ix1 e) idx 0 + ((flatScatterDims N M wf).window (ix1 e) 0 : Int) = (n.val : Int)
    rw [flatScatter_start0, flatScatter_window0, h0]; simp

end FlatScatter

/-- THE FLAT SCATTER-ADD READ AT `n`: the operand there plus the sum of the updates whose start index is `n`. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (flatScatterDims N M wf) x idx upd (ix1 n)
      = x (ix1 n) + ∑ e ∈ Finset.univ.filter (fun e : Fin M => (idx (ix2 e (0 : Fin 1))).toInt = (n.val : Int)), upd (ix1 e) := by
  unfold Ideal.hostScatterAdd
  congr 1
  rw [Finset.sum_filter, sum_idx1, Finset.sum_filter]
  refine Finset.sum_congr rfl fun e _ => ?_
  simp only [flatScatter_lands_iff]

end Idealize.ShloMosaic.RowIdx

end
-- ==== Proof.GruArray.lean ====
/-
  The whole result as ONE function of the argument arrays.

  Row n of the result is the reference-arrangement row result (GruSpec) of row n's three observations and of the
  embedding row its id selects.  The id enters through the column of start indices IDX that both programs hand to
  their gather (the id with 100 added when negative); the gather clamps a start index into the table's rows, so the
  selected row is clampRow of IDX at n, whatever the id.
-/
import Idealize.ShloMosaic.Lib.ValueIdx
import proofs.«179155_j90683939488368_2_alg».proof.Proof.LibGatherScatter
import proofs.«179155_j90683939488368_2_alg».proof.Proof.GruSpec

noncomputable section

namespace Cert.Gru

open Idealize.ShloMosaic Idealize.ShloMosaic.ValueIdx Idealize.ShloMosaic.RowIdx

section Arrays
variable (obs : (⟨3, ![16384, 3, 64]⟩ : Shape).Idx → EReal) (IDX : IVec ⟨2, ![16384, 1]⟩ 32)
  (emb : (⟨2, ![100, 1024]⟩ : Shape).Idx → EReal) (wih : (⟨2, ![3072, 1088]⟩ : Shape).Idx → EReal)
  (whh : (⟨2, ![3072, 1024]⟩ : Shape).Idx → EReal) (bih bhh : (⟨1, ![3072]⟩ : Shape).Idx → EReal)

/-- Row n's three observations. -/
def aObs (n : Fin 16384) : Fin 3 → Fin 64 → EReal := fun s k => obs (ix3 n s k)
/-- The table row that row n's start index selects. -/
def aSel (n : Fin 16384) : Fin 100 := clampRow 100 (by decide) (IDX (ix2 n (0 : Fin 1)))
/-- Row n's embedding. -/
def aEmb (n : Fin 16384) : Fin 1024 → EReal := fun k => emb (ix2 (aSel IDX n) k)
/-- The input weights, transposed. -/
def aWT : Fin 1088 → Fin 3072 → EReal := fun k j => wih (ix2 j k)
/-- The hidden weights, transposed. -/
def aUT : Fin 1024 → Fin 3072 → EReal := fun k j => whh (ix2 j k)
/-- A bias vector. -/
def aB (b : (⟨1, ![3072]⟩ : Shape).Idx → EReal) : Fin 3072 → EReal := fun j => b (ix1 j)

/-- Entry (n, q) of the result. -/
def gRow (n : Fin 16384) (q : Fin 1024) : EReal :=
  refRow (aObs obs n) (aWT wih) (aUT whh) (aB bih) (aB bhh) (aEmb IDX emb n) q

/-- THE RESULT ARRAY [16384, 1024] as a function of the arguments. -/
def G2 : (⟨2, ![16384, 1024]⟩ : Shape).Idx → EReal :=
  fun i => gRow obs IDX emb wih whh bih bhh ⟨(i 0).val, idx2_lt0 i⟩ ⟨(i 1).val, idx2_lt1 i⟩

theorem G2_ix2 (n : Fin 16384) (q : Fin 1024) :
    G2 obs IDX emb wih whh bih bhh (ix2 n q) = gRow obs IDX emb wih whh bih bhh n q := rfl

end Arrays

end Cert.Gru

end
-- ==== Proof.KernelValue.lean ====
/-
  The kernel program's run, read: its result array is G2 of the arguments.

  Before the region the host transposes the two weight arrays, reshapes the two biases to one row, and builds the
  100-row table (each embedding row times the last 1024 input-weight rows, plus the input bias) of which it gathers
  one row per id.  Grid point t stages rows 256 t .. 256 t + 255 of the observations and of the gathered rows, and all
  of the weights and biases; it writes rows 256 t .. 256 t + 255 of the result.  The 64 points' blocks tile the result,
  so the result array is one function of the arguments: row n is the kernel-arrangement row result of row n's
  observations and of the table row its id selects, which is the reference-arrangement row result (GruSpec).  After
  the region the host adds a leading unit axis.
-/
import proofs.«179155_j90683939488368_2_alg».proof.Proof.Gen.KernelIdeal.Frame
import Idealize.ShloMosaic.Lib.Pipeline.Value
import Idealize.ShloMosaic.Lib.StableHlo.Run
import proofs.«179155_j90683939488368_2_alg».proof.Proof.KernelBlock
import proofs.«179155_j90683939488368_2_alg».proof.Proof.GruArray

set_option maxRecDepth 16384

noncomputable section

open scoped BigOperators

namespace Cert.GruKernel

open Idealize.ShloMosaic Idealize.ShloMosaic.TcCoe Idealize.SL.Sem Idealize.ShloMosaic.ValueIdx Idealize.ShloMosaic.RowIdx
open Idealize.ShloMosaic.MatRows Idealize.ShloMosaic.StableHlo
open Idealize.ShloMosaic.Pipeline (Dat)
open Cert.KernelIdeal Cert.KernelIdeal.Gen Cert.Gru Cert.GruOps

variable (m : (ℓ : Loc nD τ sig) → Buf (Elt Ideal) ℓ) (ρ : Dev nD → PrngReg)

/-! ## The arguments -/

abbrev kObs (c : Dev nD) : S16384x3x64.Idx → EReal := m ((c : Thread nD τ).loc main_arg0)
abbrev kIds (c : Dev nD) : IVec S16384 32 := m ((c : Thread nD τ).loc main_arg1)
abbrev kEmb (c : Dev nD) : S100x1024.Idx → EReal := m ((c : Thread nD τ).loc main_arg2)
abbrev kWih (c : Dev nD) : S3072x1088.Idx → EReal := m ((c : Thread nD τ).loc main_arg3)
abbrev kWhh (c : Dev nD) : S3072x1024.Idx → EReal := m ((c : Thread nD τ).loc main_arg4)
abbrev kBih (c : Dev nD) : S3072.Idx → EReal := m ((c : Thread nD τ).loc main_arg5)
abbrev kBhh (c : Dev nD) : S3072.Idx → EReal := m ((c : Thread nD τ).loc main_arg6)

/-- The column of start indices the gather is given: the id, with 100 added when it is negative. -/
abbrev kIDX (c : Dev nD) : IVec S16384x1 32 :=
  broadcastInDim S16384x1 ![0] bcast_S16384_S16384x1_0 (select (cmpi .slt (kIds m c) (broadcastInDim S16384 ![] bcast_S_S16384 (constantI S_ 32 0#32)))
    (addi (kIds m c) (broadcastInDim S16384 ![] bcast_S_S16384 (constantI S_ 32 100#32))) (kIds m c))

/-- The result array [16384, 1024]. -/
abbrev kG2 (c : Dev nD) : S16384x1024.Idx → EReal :=
  G2 (kObs m c) (kIDX m c) (kEmb m c) (kWih m c) (kWhh m c) (kBih m c) (kBhh m c)

/-- The program's result [1, 16384, 1024]: the result array with a leading unit axis. -/
abbrev kOut (c : Dev nD) : S1x16384x1024.Idx → EReal :=
  broadcastInDim S1x16384x1024 ![1, 2] bcast_S16384x1024_S1x16384x1024_1_2 (kG2 m c)

/-! ## The arrays the region finds -/

/-- A row of the host's table: an embedding row times the last 1024 input-weight rows, plus the one-row input bias. -/
theorem table_apply (EMB : FVec Ideal (M2 100 1024) .bf16) (W : FVec Ideal (M2 1024 3072) .bf16) (B1 : FVec Ideal (M2 1 3072) .f32)
    (d : DotDims (M2 100 1024) (M2 1024 3072) (M2 100 3072)) (hd : d = DotDims.plain 100 1024 3072)
    (hb : (M2 1 3072).BroadcastsInDim (M2 100 3072) ![0, 1]) (ht : FTy.bits .bf16 < FTy.bits .f32) (r : Fin 100) (j : Fin 3072)
    (e : Fin 1024 → EReal) (wT : Fin 1088 → Fin 3072 → EReal) (bih : Fin 3072 → EReal)
    (hE : ∀ k, EMB (ix2 r k) = e k) (hW : ∀ k, W (ix2 k j) = wT (cB k) j) (hB : B1 (ix2 (0 : Fin 1) j) = bih j) :
    (truncf (F := Ideal) .bf16 (addf (Host.dotGeneral (F := Ideal) d none EMB W) (broadcastInDim (M2 100 3072) ![0, 1] hb B1)) ht
      : FVec Ideal (M2 100 3072) .bf16) (ix2 r j) = tab wT bih e j := by
  show (Host.dotGeneral (F := Ideal) d none EMB W : FVec Ideal (M2 100 3072) .f32) (ix2 r j)
    + broadcastInDim (M2 100 3072) ![0, 1] hb B1 (ix2 r j) = _
  rw [hmm_apply d hd EMB W r j e (fun k => wT (cB k) j) hE hW, broadcastInDim_oneRow_apply, hB]
  rfl

/-- The transposed input weights as the region finds them. -/
theorem V1_apply (c : Dev nD) (k : Fin 1088) (j : Fin 3072) :
    (V m c main_v1 : S1088x3072.Idx → EReal) (ix2 k j) = aWT (kWih m c) k j := by
  show StableHlo.after hostOps0 (fun b => m (c, b)) (Proc.devRef .tc main_v1) (ix2 k j) = _
  after_results
  exact transpose_ix2_apply (a := 3072) (b := 1088) (kWih m c) _ k j

/-- The transposed hidden weights as the region finds them. -/
theorem V3_apply (c : Dev nD) (k : Fin 1024) (j : Fin 3072) :
    (V m c main_v3 : S1024x3072.Idx → EReal) (ix2 k j) = aUT (kWhh m c) k j := by
  show StableHlo.after hostOps0 (fun b => m (c, b)) (Proc.devRef .tc main_v3) (ix2 k j) = _
  after_results
  exact transpose_ix2_apply (a := 3072) (b := 1024) (kWhh m c) _ k j

/-- The one-row input bias as the region finds it. -/
theorem V4_apply (c : Dev nD) (j : Fin 3072) :
    (V m c main_v4 : S1x3072.Idx → EReal) (ix2 (0 : Fin 1) j) = aB (kBih m c) j := by
  show StableHlo.after hostOps0 (fun b => m (c, b)) (Proc.devRef .tc main_v4) (ix2 (0 : Fin 1) j) = _
  after_results
  exact shapeCast_a_1a_apply (a := 3072) (kBih m c) _ (0 : Fin 1) j

/-- The one-row hidden bias as the region finds it. -/
theorem V5_apply (c : Dev nD) (j : Fin 3072) :
    (V m c main_v5 : S1x3072.Idx → EReal) (ix2 (0 : Fin 1) j) = aB (kBhh m c) j := by
  show StableHlo.after hostOps0 (fun b => m (c, b)) (Proc.devRef .tc main_v5) (ix2 (0 : Fin 1) j) = _
  after_results
  exact shapeCast_a_1a_apply (a := 3072) (kBhh m c) _ (0 : Fin 1) j

set_option maxHeartbeats 4000000 in
/-- The gathered table rows as the region finds them: row n is the table row of the embedding that row n's id selects. -/
theorem V18_apply (c : Dev nD) (n : Fin 16384) (j : Fin 3072) :
    (V m c main_v18 : S16384x3072.Idx → EReal) (ix2 n j)
      = tab (aWT (kWih m c)) (aB (kBih m c)) (aEmb (kIDX m c) (kEmb m c) n) j := by
  show StableHlo.after hostOps0 (fun b => m (c, b)) (Proc.devRef .tc main_v18) (ix2 n j) = _
  after_results
  refine (rowGather_apply (N := 100) (M := 16384) (C := 3072) (by decide) _ _ _ n j).trans ?_
  refine table_apply _ _ _ _ rfl _ _ (aSel (kIDX m c) n) j (aEmb (kIDX m c) (kEmb m c) n) (aWT (kWih m c)) (aB (kBih m c))
    (fun k => rfl) (fun k => ?_) ?_
  · exact (slice2_axis0_apply 64 _ _ k j (cB k) rfl).trans (transpose_ix2_apply (a := 3072) (b := 1088) (kWih m c) _ (cB k) j)
  · exact shapeCast_a_1a_apply (a := 3072) (kBih m c) _ (0 : Fin 1) j

/-! ## The staged blocks -/

/-- The printed index maps, decided over the grid. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The array row that row p of point t's blocks is. -/
def rowOf (t : Fin cfg0.N) (p : Fin 256) : Fin 16384 :=
  ⟨256 * t.val + p.val, by
    have h := t.isLt
    have e : cfg0.N = 64 := N_0
    have := p.isLt
    omega⟩

theorem iblk0_apply (c : Dev nD) (t : Fin cfg0.N) (p : Fin 256) (s : Fin 3) (k : Fin 64) :
    (iblk m c 0 t : Vec Ideal S256x3x64 .f32) (ix3 p s k) = kObs m c (ix3 (rowOf t p) s k) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 256 + 1 * p.val = 256 * t.val + p.val; rw [e0]; omega
  | ⟨1, _⟩ => show win0_0.index t (1 : Fin 3) * 3 + 1 * s.val = s.val; rw [e1]; omega
  | ⟨2, _⟩ => show win0_0.index t (2 : Fin 3) * 64 + 1 * k.val = k.val; rw [e2]; omega

theorem iblk1_apply (c : Dev nD) (t : Fin cfg0.N) (p : Fin 256) (j : Fin 3072) :
    (iblk m c 1 t : Vec Ideal S256x3072 .bf16) (ix2 p j) = (V m c main_v18 : S16384x3072.Idx → EReal) (ix2 (rowOf t p) j) := by
  obtain ⟨-, -, -, e0, e1, -⟩ := idx_facts t
  unfold iblk
  rw [View.read_apply]
  show V m c main_v18 _ = _
  refine congrArg _ (funext fun a => Fin.ext ?_)
  match a with
  | ⟨0, _⟩ => show win0_1.index t (0 : Fin 2) * 256 + 1 * p.val = 256 * t.val + p.val; rw [e0]; omega
  | ⟨1, _⟩ => show win0_1.index t (1 : Fin 2) * 3072 + 1 * j.val = j.val; rw [e1]; omega

theorem iblk2_apply (c : Dev nD) (t : Fin cfg0.N) (k : Fin 1088) (j : Fin 3072) :
    (iblk m c 2 t : Vec Ideal S1088x3072 .bf16) (ix2 k j) = (V m c main_v1 : S1088x3072.Idx → EReal) (ix2 k j) := by
  obtain ⟨-, -, -, -, -, e0, e1, -⟩ := idx_facts t
  unfold iblk
  rw [View.read_apply]
  show V m c main_v1 _ = _
  refine congrArg _ (funext fun a => Fin.ext ?_)
  match a with
  | ⟨0, _⟩ => show win0_2.index t (0 : Fin 2) * 1088 + 1 * k.val = k.val; rw [e0]; omega
  | ⟨1, _⟩ => show win0_2.index t (1 : Fin 2) * 3072 + 1 * j.val = j.val; rw [e1]; omega

theorem iblk3_apply (c : Dev nD) (t : Fin cfg0.N) (k : Fin 1024) (j : Fin 3072) :
    (iblk m c 3 t : Vec Ideal S1024x3072 .bf16) (ix2 k j) = (V m c main_v3 : S1024x3072.Idx → EReal) (ix2 k j) := by
  obtain ⟨-, -, -, -, -, -, -, e0, e1, -⟩ := idx_facts t
  unfold iblk
  rw [View.read_apply]
  show V m c main_v3 _ = _
  refine congrArg _ (funext fun a => Fin.ext ?_)
  match a with
  | ⟨0, _⟩ => show win0_3.index t (0 : Fin 2) * 1024 + 1 * k.val = k.val; rw [e0]; omega
  | ⟨1, _⟩ => show win0_3.index t (1 : Fin 2) * 3072 + 1 * j.val = j.val; rw [e1]; omega

theorem iblk4_apply (c : Dev nD) (t : Fin cfg0.N) (j : Fin 3072) :
    (iblk m c 4 t : Vec Ideal S1x3072 .f32) (ix2 (0 : Fin 1) j) = (V m c main_v4 : S1x3072.Idx → EReal) (ix2 (0 : Fin 1) j) := by
  obtain ⟨-, -, -, -, -, -, -, -, -, e0, e1, -⟩ := idx_facts t
  unfold iblk
  rw [View.read_apply]
  show V m c main_v4 _ = _
  refine congrArg _ (funext fun a => Fin.ext ?_)
  match a with
  | ⟨0, _⟩ => show win0_4.index t (0 : Fin 2) * 1 + 1 * 0 = 0; rw [e0]
  | ⟨1, _⟩ => show win0_4.index t (1 : Fin 2) * 3072 + 1 * j.val = j.val; rw [e1]; omega

theorem iblk5_apply (c : Dev nD) (t : Fin cfg0.N) (j : Fin 3072) :
    (iblk m c 5 t : Vec Ideal S1x3072 .f32) (ix2 (0 : Fin 1) j) = (V m c main_v5 : S1x3072.Idx → EReal) (ix2 (0 : Fin 1) j) := by
  obtain ⟨-, -, -, -, -, -, -, -, -, -, -, e0, e1, -⟩ := idx_facts t
  unfold iblk
  rw [View.read_apply]
  show V m c main_v5 _ = _
  refine congrArg _ (funext fun a => Fin.ext ?_)
  match a with
  | ⟨0, _⟩ => show win0_5.index t (0 : Fin 2) * 1 + 1 * 0 = 0; rw [e0]
  | ⟨1, _⟩ => show win0_5.index t (1 : Fin 2) * 3072 + 1 * j.val = j.val; rw [e1]; omega

/-! ## What a point writes back, and the whole array -/

/-- WHAT POINT t WRITES BACK is block t of the result array G2. -/
theorem flushed_eq (c : Dev nD) (t : Fin cfg0.N) :
    (dats m 0 c).flushed 6 t = ((cfg0.win 6).blk t).view.read (Elt Ideal) (kG2 m c) := by
  obtain ⟨-, -, -, -, -, -, -, -, -, -, -, -, -, e0, e1⟩ := idx_facts t
  show (cfg0.win 6).cut (grid0.coords t) ((dats m 0 c).after 6 t) = _
  rw [after0_6]
  funext y
  obtain ⟨p, q, rfl⟩ : ∃ (p : Fin 256) (q : Fin 1024), y = ix2 p q := ⟨y 0, y 1, eq_ix2 y⟩
  rw [View.read_apply]
  have hn : ((cfg0.win 6).blk t).view.emb (ix2 p q) = ix2 (rowOf t p) q := by
    funext a
    refine Fin.ext ?_
    match a with
    | ⟨0, _⟩ => show win0_6.index t (0 : Fin 2) * 256 + 1 * p.val = 256 * t.val + p.val; rw [e0]; omega
    | ⟨1, _⟩ => show win0_6.index t (1 : Fin 2) * 1024 + 1 * q.val = q.val; rw [e1]; omega
  rw [hn]
  show out0_6 (iblk m c 0 t) (iblk m c 1 t) (iblk m c 2 t) (iblk m c 3 t) (iblk m c 4 t) (iblk m c 5 t) (ix2 p q)
    = G2 (kObs m c) (kIDX m c) (kEmb m c) (kWih m c) (kWhh m c) (kBih m c) (kBhh m c) (ix2 (rowOf t p) q)
  rw [out_apply, G2_ix2]
  unfold gRow
  rw [refRow_eq_kernelRow]
  have h0 : obsRow (iblk m c 0 t) p = aObs (kObs m c) (rowOf t p) :=
    funext fun s => funext fun k => iblk0_apply m c t p s k
  have h1 : geRow (iblk m c 1 t) p = tab (aWT (kWih m c)) (aB (kBih m c)) (aEmb (kIDX m c) (kEmb m c) (rowOf t p)) :=
    funext fun j => (iblk1_apply m c t p j).trans (V18_apply m c (rowOf t p) j)
  have h2 : wTk (iblk m c 2 t) = aWT (kWih m c) :=
    funext fun k => funext fun j => (iblk2_apply m c t k j).trans (V1_apply m c k j)
  have h3 : uTk (iblk m c 3 t) = aUT (kWhh m c) :=
    funext fun k => funext fun j => (iblk3_apply m c t k j).trans (V3_apply m c k j)
  have h4 : bRow (iblk m c 4 t) = aB (kBih m c) := funext fun j => (iblk4_apply m c t j).trans (V4_apply m c j)
  have h5 : bRow (iblk m c 5 t) = aB (kBhh m c) := funext fun j => (iblk5_apply m c t j).trans (V5_apply m c j)
  rw [h0, h1, h2, h3, h4, h5]

/-- An index of the result is in point t's block iff each coordinate is in the block's range on its axis. -/
theorem mem_blk (t : Fin cfg0.N) (i : S16384x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v19).slice (win0_6.rect t)).set ↔ _
  rw [View.set_slice_whole, Rect.mem_set_unit]
  exact Iff.rfl

/-- THE RESULT ARRAY after the run: the 64 blocks tile it, so it is G2 of the arguments. -/
theorem final (c : Dev nD) : (dats m 0 c).arrAt 6 cfg0.N = kG2 m c :=
  (dats m 0 c).arrAt_eq_of_cover 6 (kG2 m c) (fun t _ => flushed_eq m c t) fun i => by
    have hi0 : (i 0).val < 16384 := (i 0).isLt
    have hi1 : (i 1).val < 1024 := (i 1).isLt
    let t : Fin cfg0.N := ⟨(i 0).val / 256, by rw [show cfg0.N = 64 from N_0]; omega⟩
    obtain ⟨-, -, -, -, -, -, -, -, -, -, -, -, -, e0, e1⟩ := idx_facts t
    refine ⟨t, flush0_6 t, ?_⟩
    rw [mem_blk]
    intro a
    match a with
    | ⟨0, _⟩ =>
      show win0_6.index t (0 : Fin 2) * 256 ≤ (i 0).val ∧ (i 0).val < win0_6.index t (0 : Fin 2) * 256 + 256
      rw [e0]
      show (i 0).val / 256 * 256 ≤ (i 0).val ∧ (i 0).val < (i 0).val / 256 * 256 + 256
      omega
    | ⟨1, _⟩ =>
      show win0_6.index t (1 : Fin 2) * 1024 ≤ (i 1).val ∧ (i 1).val < win0_6.index t (1 : Fin 2) * 1024 + 1024
      rw [e1]
      omega

/-! ## The host operation after the region, and the run -/

/-- The program's result: the result array with a leading unit axis. -/
theorem tail_eq (c : Dev nD) :
    Pipeline.afterTail₀ cfgs (dats m) 0 (V0 m) [hostOps1] c main_v20
      = broadcastInDim S1x16384x1024 ![1, 2] bcast_S16384x1024_S1x16384x1024_1_2 (kG2 m c) := by
  unfold Pipeline.afterTail₀
  show StableHlo.after hostOps1 _ (Proc.devRef .tc main_v20) = _
  after_results
  exact congrArg (broadcastInDim S1x16384x1024 ![1, 2] bcast_S16384x1024_S1x16384x1024_1_2)
    ((Pipeline.withArrays_arr spec0 launch0.win.arr_inj c (V0 m c) (fun w => (dats m 0 c).arrAt w cfg0.N) 6).trans (final m c))

/-- THE KERNEL PROGRAM'S RUN, READ: the result at G2 of the arguments with a leading unit axis, the arguments unchanged. -/
theorem run : θ_run defs (onTc (τ := τ) (main (F := Ideal))) ⟨m, fun _ => 0, ρ⟩ fun r => ∀ c : Dev nD,
      r.2.mem ((c.tc : Thread nD τ).loc main_v20)
        = broadcastInDim S1x16384x1024 ![1, 2] bcast_S16384x1024_S1x16384x1024_1_2 (kG2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v20 (Pipeline.mem_restRefs_of main_v20 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.GruKernel

end
-- ==== Proof.RefValue.lean ====
/-
  The reference program's run, read one row at a time.

  The generated run names, per step, the input pre-activation, the hidden pre-activation, the update gate and the new
  state as arrays of 16384 rows.  Row n of each is the reference-arrangement row quantity of GruSpec for row n's
  observations and gathered embedding: the input is a concatenation along the columns, contracted over all 1088 of
  them against the transposed input weights; the first state is the zero array.  The result is the array G2.
-/
import proofs.«179155_j90683939488368_2_alg».proof.Proof.Gen.ReferenceIdeal.Run
import proofs.«179155_j90683939488368_2_alg».proof.Proof.GruOps
import proofs.«179155_j90683939488368_2_alg».proof.Proof.GruArray

set_option maxRecDepth 16384

noncomputable section

open scoped BigOperators

namespace Cert.GruRef

open Idealize.ShloMosaic Idealize.ShloMosaic.ValueIdx Idealize.ShloMosaic.RowIdx Idealize.ShloMosaic.StableHlo
open Cert.ReferenceIdeal Cert.ReferenceIdeal.Gen Cert.ReferenceIdeal.Value Cert.Gru Cert.GruOps

variable (V0 : Valuation τ sig (Elt Ideal))

/-! ## The arguments -/

abbrev rObs : S16384x3x64.Idx → EReal := V0 (Proc.devRef .tc main_arg0)
abbrev rIds : IVec S16384 32 := V0 (Proc.devRef .tc main_arg1)
abbrev rEmb : S100x1024.Idx → EReal := V0 (Proc.devRef .tc main_arg2)
abbrev rWih : S3072x1088.Idx → EReal := V0 (Proc.devRef .tc main_arg3)
abbrev rWhh : S3072x1024.Idx → EReal := V0 (Proc.devRef .tc main_arg4)
abbrev rBih : S3072.Idx → EReal := V0 (Proc.devRef .tc main_arg5)
abbrev rBhh : S3072.Idx → EReal := V0 (Proc.devRef .tc main_arg6)

/-- The column of start indices the gather is given: the id, with 100 added when it is negative. -/
abbrev rIDX : IVec S16384x1 32 :=
  broadcastInDim S16384x1 ![0] bcast_S16384_S16384x1_0 (select (cmpi .slt (rIds V0) (broadcastInDim S16384 ![] bcast_S_S16384 (constantI S_ 32 0#32)))
    (addi (rIds V0) (broadcastInDim S16384 ![] bcast_S_S16384 (constantI S_ 32 100#32))) (rIds V0))

/-- Row n's quantities. -/
abbrev o (n : Fin 16384) := aObs (rObs V0) n
abbrev e (n : Fin 16384) := aEmb (rIDX V0) (rEmb V0) n
abbrev wT := aWT (rWih V0)
abbrev uT := aUT (rWhh V0)
abbrev bi := aB (rBih V0)
abbrev bh := aB (rBhh V0)

/-! ## Concatenations by rows -/

theorem catA_row {R : Nat} (A : (M2 R 64).Idx → EReal) (B : (M2 R 1024).Idx → EReal)
    (hc : Shape.Concatenates [M2 R 64, M2 R 1024] (M2 R 1088) (1 : Fin 2)) (p : Fin R) (k : Fin 1088)
    (a : Fin 64 → EReal) (b : Fin 1024 → EReal) (hA : ∀ k', A (ix2 p k') = a k') (hB : ∀ k', B (ix2 p k') = b k') :
    concatenate (M2 R 1088) (1 : Fin 2) [⟨M2 R 64, A⟩, ⟨M2 R 1024, B⟩] hc (ix2 p k) = catA a b k := by
  rw [hcatA_apply]
  unfold catA
  by_cases h : k.val < 64
  · rw [dif_pos h, dif_pos h, hA]
  · rw [dif_neg h, dif_neg h, hB]

theorem catC_row {R : Nat} (A : (M2 R 1024).Idx → EReal) (B : (M2 R 64).Idx → EReal)
    (hc : Shape.Concatenates [M2 R 1024, M2 R 64] (M2 R 1088) (1 : Fin 2)) (p : Fin R) (k : Fin 1088)
    (a : Fin 1024 → EReal) (b : Fin 64 → EReal) (hA : ∀ k', A (ix2 p k') = a k') (hB : ∀ k', B (ix2 p k') = b k') :
    concatenate (M2 R 1088) (1 : Fin 2) [⟨M2 R 1024, A⟩, ⟨M2 R 64, B⟩] hc (ix2 p k) = catC a b k := by
  rw [hcatC_apply]
  unfold catC
  by_cases h : k.val < 1024
  · rw [dif_pos h, dif_pos h, hA]
  · rw [dif_neg h, dif_neg h, hB]

/-! ## The shared operands -/

/-- The gathered embedding rows. -/
theorem v6_row (n : Fin 16384) (k : Fin 1024) : res_main_v6 V0 (ix2 n k) = e V0 n k := by
  unfold res_main_v6
  exact rowGather_apply (N := 100) (M := 16384) (C := 1024) (by decide) _ (rEmb V0) (rIDX V0) n k

/-- The zero state. -/
theorem v7_row (n : Fin 16384) (k : Fin 1024) : res_main_v7 V0 (ix2 n k) = zero := by
  unfold res_main_v7
  exact broadcastInDim_scalar_apply _ _ _

theorem wT_row (k : Fin 1088) (j : Fin 3072) :
    transpose S1088x3072 [1, 0] (rWih V0) transposes_S3072x1088_S1088x3072_1_0 (ix2 k j) = wT V0 k j :=
  transpose_ix2_apply (a := 3072) (b := 1088) (rWih V0) _ k j

theorem uT_row (k : Fin 1024) (j : Fin 3072) :
    transpose S1024x3072 [1, 0] (rWhh V0) transposes_S3072x1024_S1024x3072_1_0 (ix2 k j) = uT V0 k j :=
  transpose_ix2_apply (a := 3072) (b := 1024) (rWhh V0) _ k j

/-- Time step s of the observations, flattened. -/
theorem obs_row (off : Nat) (s : Fin 3) (hs : s.val = off) (h1 : S16384x3x64.Slices ![0, off, 0] S16384x1x64)
    (h2 : S16384x1x64.ShapeCasts S16384x64) (n : Fin 16384) (k : Fin 64) :
    shapeCast S16384x64 (extractStridedSlice S16384x1x64 ![0, off, 0] (rObs V0) h1) h2 (ix2 n k) = o V0 n s k :=
  obsStep_apply (R := 16384) (rObs V0) off s hs h1 h2 n k

/-! ## Step 0 -/

theorem v15_row (n : Fin 16384) (j : Fin 3072) : res_main_v15 V0 (ix2 n j) = rin (wT V0) (bi V0) (catA (o V0 n 0) (e V0 n)) j := by
  unfold res_main_v15
  exact hin_apply (R := 16384) _ rfl _ _ (rBih V0) _ _ n j _ (wT V0) (bi V0)
    (fun k => catA_row _ _ _ n k _ _ (fun k' => obs_row V0 0 0 rfl _ _ n k') (fun k' => v6_row V0 n k'))
    (fun k => wT_row V0 k j) rfl

theorem v20_row (n : Fin 16384) (j : Fin 3072) : res_main_v20 V0 (ix2 n j) = hid (uT V0) (bh V0) (fun _ => zero) j := by
  unfold res_main_v20
  exact hhid_apply (R := 16384) _ rfl (res_main_v7 V0) _ (rBhh V0) _ _ n j _ (uT V0) (bh V0)
    (fun k => v7_row V0 n k) (fun k => uT_row V0 k j) rfl

theorem v48_row (n : Fin 16384) (q : Fin 1024) :
    res_main_v48 V0 (ix2 n q) = rh0 (o V0 n) (wT V0) (uT V0) (bi V0) (bh V0) (e V0 n) q := by
  unfold res_main_v48
  exact hgate_apply (R := 16384) (res_main_v15 V0) (res_main_v20 V0) (res_main_v7 V0) (res_main_v40 V0) _ _ _ _ rfl n q _ _ _
    (fun j => v15_row V0 n j) (fun j => v20_row V0 n j) (v7_row V0 n q)

/-! ## Step 1 -/

theorem v56_row (n : Fin 16384) (j : Fin 3072) : res_main_v56 V0 (ix2 n j) = rin (wT V0) (bi V0) (catA (o V0 n 1) (e V0 n)) j := by
  unfold res_main_v56
  exact hin_apply (R := 16384) _ rfl _ _ (rBih V0) _ _ n j _ (wT V0) (bi V0)
    (fun k => catA_row _ _ _ n k _ _ (fun k' => obs_row V0 1 1 rfl _ _ n k') (fun k' => v6_row V0 n k'))
    (fun k => wT_row V0 k j) rfl

theorem v61_row (n : Fin 16384) (j : Fin 3072) :
    res_main_v61 V0 (ix2 n j) = hid (uT V0) (bh V0) (rh0 (o V0 n) (wT V0) (uT V0) (bi V0) (bh V0) (e V0 n)) j := by
  unfold res_main_v61
  exact hhid_apply (R := 16384) _ rfl (res_main_v48 V0) _ (rBhh V0) _ _ n j _ (uT V0) (bh V0)
    (fun k => v48_row V0 n k) (fun k => uT_row V0 k j) rfl

theorem v89_row (n : Fin 16384) (q : Fin 1024) :
    res_main_v89 V0 (ix2 n q) = rh1 (o V0 n) (wT V0) (uT V0) (bi V0) (bh V0) (e V0 n) q := by
  unfold res_main_v89
  exact hgate_apply (R := 16384) (res_main_v56 V0) (res_main_v61 V0) (res_main_v48 V0) (res_main_v81 V0) _ _ _ _ rfl n q _ _ _
    (fun j => v56_row V0 n j) (fun j => v61_row V0 n j) (v48_row V0 n q)

/-! ## Step 2 -/

theorem v97_row (n : Fin 16384) (j : Fin 3072) : res_main_v97 V0 (ix2 n j) = rin (wT V0) (bi V0) (catA (o V0 n 2) (e V0 n)) j := by
  unfold res_main_v97
  exact hin_apply (R := 16384) _ rfl _ _ (rBih V0) _ _ n j _ (wT V0) (bi V0)
    (fun k => catA_row _ _ _ n k _ _ (fun k' => obs_row V0 2 2 rfl _ _ n k') (fun k' => v6_row V0 n k'))
    (fun k => wT_row V0 k j) rfl

theorem v102_row (n : Fin 16384) (j : Fin 3072) :
    res_main_v102 V0 (ix2 n j) = hid (uT V0) (bh V0) (rh1 (o V0 n) (wT V0) (uT V0) (bi V0) (bh V0) (e V0 n)) j := by
  unfold res_main_v102
  exact hhid_apply (R := 16384) _ rfl (res_main_v89 V0) _ (rBhh V0) _ _ n j _ (uT V0) (bh V0)
    (fun k => v89_row V0 n k) (fun k => uT_row V0 k j) rfl

theorem v130_row (n : Fin 16384) (q : Fin 1024) :
    res_main_v130 V0 (ix2 n q) = rh2 (o V0 n) (wT V0) (uT V0) (bi V0) (bh V0) (e V0 n) q := by
  unfold res_main_v130
  exact hgate_apply (R := 16384) (res_main_v97 V0) (res_main_v102 V0) (res_main_v89 V0) (res_main_v122 V0) _ _ _ _ rfl n q _ _ _
    (fun j => v97_row V0 n j) (fun j => v102_row V0 n j) (v89_row V0 n q)

/-! ## Step 3 -/

theorem v138_row (n : Fin 16384) (j : Fin 3072) :
    res_main_v138 V0 (ix2 n j)
      = rin (wT V0) (bi V0) (catC (rh0 (o V0 n) (wT V0) (uT V0) (bi V0) (bh V0) (e V0 n)) (o V0 n 1)) j := by
  unfold res_main_v138
  exact hin_apply (R := 16384) _ rfl _ _ (rBih V0) _ _ n j _ (wT V0) (bi V0)
    (fun k => catC_row _ _ _ n k _ _ (fun k' => v48_row V0 n k') (fun k' => obs_row V0 1 1 rfl _ _ n k'))
    (fun k => wT_row V0 k j) rfl

theorem v143_row (n : Fin 16384) (j : Fin 3072) :
    res_main_v143 V0 (ix2 n j) = hid (uT V0) (bh V0) (rh2 (o V0 n) (wT V0) (uT V0) (bi V0) (bh V0) (e V0 n)) j := by
  unfold res_main_v143
  exact hhid_apply (R := 16384) _ rfl (res_main_v130 V0) _ (rBhh V0) _ _ n j _ (uT V0) (bh V0)
    (fun k => v130_row V0 n k) (fun k => uT_row V0 k j) rfl

theorem v171_row (n : Fin 16384) (q : Fin 1024) :
    res_main_v171 V0 (ix2 n q) = rh3 (o V0 n) (wT V0) (uT V0) (bi V0) (bh V0) (e V0 n) q := by
  unfold res_main_v171
  exact hgate_apply (R := 16384) (res_main_v138 V0) (res_main_v143 V0) (res_main_v130 V0) (res_main_v163 V0) _ _ _ _ rfl n q _ _ _
    (fun j => v138_row V0 n j) (fun j => v143_row V0 n j) (v130_row V0 n q)

/-! ## Step 4 and the result -/

theorem v179_row (n : Fin 16384) (j : Fin 3072) :
    res_main_v179 V0 (ix2 n j)
      = rin (wT V0) (bi V0) (catC (rh3 (o V0 n) (wT V0) (uT V0) (bi V0) (bh V0) (e V0 n)) (o V0 n 2)) j := by
  unfold res_main_v179
  exact hin_apply (R := 16384) _ rfl _ _ (rBih V0) _ _ n j _ (wT V0) (bi V0)
    (fun k => catC_row _ _ _ n k _ _ (fun k' => v171_row V0 n k') (fun k' => obs_row V0 2 2 rfl _ _ n k'))
    (fun k => wT_row V0 k j) rfl

theorem v184_row (n : Fin 16384) (j : Fin 3072) :
    res_main_v184 V0 (ix2 n j) = hid (uT V0) (bh V0) (rh3 (o V0 n) (wT V0) (uT V0) (bi V0) (bh V0) (e V0 n)) j := by
  unfold res_main_v184
  exact hhid_apply (R := 16384) _ rfl (res_main_v171 V0) _ (rBhh V0) _ _ n j _ (uT V0) (bh V0)
    (fun k => v171_row V0 n k) (fun k => uT_row V0 k j) rfl

/-- The last state, before its leading unit axis is added: the term the generated run ends with. -/
def last2D : FVec Ideal S16384x1024 .f32 :=
  addf (mulf (subf (broadcastInDim S16384x1024 ![] bcast_S_S16384x1024 (constant S_ .f32 0x3F800000#32)) (res_main_v204 V0)) (Host.tanh (addf (extractStridedSlice S16384x1024 ![0, 2048] (res_main_v179 V0) slices_S16384x3072_S16384x1024_0_2048) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (extractStridedSlice S16384x1024 ![0, 0] (res_main_v179 V0) slices_S16384x3072_S16384x1024_0_0) (extractStridedSlice S16384x1024 ![0, 0] (res_main_v184 V0) slices_S16384x3072_S16384x1024_0_0)))))) (extractStridedSlice S16384x1024 ![0, 2048] (res_main_v184 V0) slices_S16384x3072_S16384x1024_0_2048))))) (mulf (res_main_v204 V0) (res_main_v171 V0))

theorem last_row (n : Fin 16384) (q : Fin 1024) :
    last2D V0 (ix2 n q) = refRow (o V0 n) (wT V0) (uT V0) (bi V0) (bh V0) (e V0 n) q := by
  unfold last2D
  exact hgate_apply (R := 16384) (res_main_v179 V0) (res_main_v184 V0) (res_main_v171 V0) (res_main_v204 V0) _ _ _ _ rfl n q _ _ _
    (fun j => v179_row V0 n j) (fun j => v184_row V0 n j) (v171_row V0 n q)

/-- THE REFERENCE'S LAST STATE is the array G2 of the arguments. -/
theorem last_eq : last2D V0 = G2 (rObs V0) (rIDX V0) (rEmb V0) (rWih V0) (rWhh V0) (rBih V0) (rBhh V0) := by
  funext i
  obtain ⟨n, q, rfl⟩ : ∃ (n : Fin 16384) (q : Fin 1024), i = ix2 n q := ⟨i 0, i 1, eq_ix2 i⟩
  rw [G2_ix2]
  exact last_row V0 n q

end Cert.GruRef

end
-- ==== Proof.lean ====
/-
  The five claims for a five-step GRU recurrence over 16384 independent rows.

  Each row carries three 64-wide observations and an integer id selecting one of 100 embedding rows
  of width 1024.  A step forms an input pre-activation gi (a product with w_ih plus b_ih) and a hidden
  pre-activation gh (a product with w_hh plus b_hh), each of width 3072 = three gates of width 1024, and
  updates the hidden state by  h' = (1 - z) * n + z * h,  r = sigmoid (gi_r + gh_r),
  z = sigmoid (gi_z + gh_z),  n = tanh (gi_n + r * gh_n).

  The reference forms each step's input by concatenation and contracts over all 1088 columns.  The
  kernel contracts the two pieces of the concatenation separately and, for the first three steps, reads
  the embedding piece (with b_ih already added) from a 100-row table computed once and gathered by id;
  at the first step, where the hidden state is zero, it omits the hidden product and the z * h term.
  On the extended reals these agree by: a finite sum splits over a concatenation; + is associative;
  0 * x = 0 and x + 0 = x; a row gather commutes with a row-wise map.  No finiteness is used.

  Both programs end at ONE function of the argument arrays (GruArray's G2, with a leading unit axis):
  KernelValue reads the kernel program's run to it, RefValue the reference's.
-/
import proofs.«179155_j90683939488368_2_alg».proof.Defs
import proofs.«179155_j90683939488368_2_alg».proof.Proof.Gen.Kernel
import proofs.«179155_j90683939488368_2_alg».proof.Proof.Gen.Kernel.Skeleton
import proofs.«179155_j90683939488368_2_alg».proof.Proof.Gen.Kernel.Launch
import proofs.«179155_j90683939488368_2_alg».proof.Proof.Gen.Kernel.Points
import proofs.«179155_j90683939488368_2_alg».proof.Proof.Gen.Kernel.Frame
import proofs.«179155_j90683939488368_2_alg».proof.Proof.Gen.KernelIdeal
import proofs.«179155_j90683939488368_2_alg».proof.Proof.Gen.KernelIdeal.Skeleton
import proofs.«179155_j90683939488368_2_alg».proof.Proof.Gen.KernelIdeal.Launch
import proofs.«179155_j90683939488368_2_alg».proof.Proof.Gen.KernelIdeal.Points
import proofs.«179155_j90683939488368_2_alg».proof.Proof.Gen.KernelIdeal.Frame
import proofs.«179155_j90683939488368_2_alg».proof.Proof.Gen.ReferenceIdeal
import proofs.«179155_j90683939488368_2_alg».proof.Proof.Gen.ReferenceIdeal.Run
import proofs.«179155_j90683939488368_2_alg».proof.Proof.Gen.Pre_finite_inputs
import proofs.«179155_j90683939488368_2_alg».proof.Proof.KernelValue
import proofs.«179155_j90683939488368_2_alg».proof.Proof.RefValue
import Idealize.ShloMosaic.Adequacy
import Idealize.ShloMosaic.Init

set_option maxRecDepth 16384

noncomputable section

namespace Cert.Proof

open Idealize.ShloMosaic Idealize.SL.Sem Idealize.ShloMosaic.StableHlo

theorem frame_k : Cert.frame_Kernel :=
  fun m ρ _ => Cert.Kernel.Gen.frame m ρ

theorem frame_ki : Cert.frame_KernelIdeal :=
  fun m ρ _ => Cert.KernelIdeal.Gen.frame m ρ

theorem frame_ri : Cert.frame_ReferenceIdeal :=
  fun m ρ _ =>
    (θ_run Cert.ReferenceIdeal.defs _ _).mono (fun _ h c => (h c).2) (Cert.ReferenceIdeal.Value.run (F := Ideal) m ρ)

/-- From arguments that agree, the reference's arrays are the kernel program's, so its result function is too. -/
theorem result_agrees (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (e0 : Cert.GruRef.rObs V0 = Cert.GruKernel.kObs m c) (e1 : Cert.GruRef.rIds V0 = Cert.GruKernel.kIds m c)
    (e2 : Cert.GruRef.rEmb V0 = Cert.GruKernel.kEmb m c) (e3 : Cert.GruRef.rWih V0 = Cert.GruKernel.kWih m c)
    (e4 : Cert.GruRef.rWhh V0 = Cert.GruKernel.kWhh m c) (e5 : Cert.GruRef.rBih V0 = Cert.GruKernel.kBih m c)
    (e6 : Cert.GruRef.rBhh V0 = Cert.GruKernel.kBhh m c) :
    Cert.Gru.G2 (Cert.GruRef.rObs V0) (Cert.GruRef.rIDX V0) (Cert.GruRef.rEmb V0) (Cert.GruRef.rWih V0) (Cert.GruRef.rWhh V0)
        (Cert.GruRef.rBih V0) (Cert.GruRef.rBhh V0)
      = Cert.GruKernel.kG2 m c := by
  have eI : Cert.GruRef.rIDX V0 = Cert.GruKernel.kIDX m c := by
    unfold Cert.GruRef.rIDX Cert.GruKernel.kIDX
    rw [e1]
  rw [e0, eI, e2, e3, e4, e5, e6]

/-- At the ideal instance, from arguments that agree, both programs run and end with the same result: the result
    function G2 of the arguments with a leading unit axis (the kernel program's run read by KernelValue, the
    reference's by RefValue). -/
theorem algebraic : Cert.algebraic_KernelIdeal_ReferenceIdeal := by
  intro m ρ m' ρ' _ hagree
  refine ⟨fun c => Cert.GruKernel.kOut m c, Cert.GruKernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  show broadcastInDim _ _ _ (Cert.GruRef.last2D (launchContents m' c)) = _
  rw [Cert.GruRef.last_eq, result_agrees m (launchContents m' c) c a0 a1 a2 a3 a4 a5 a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
